-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S600000 : Shape := ⟨1, ![600000]⟩
abbrev S128x256 : Shape := ⟨2, ![128, 256]⟩
abbrev S47x128 : Shape := ⟨2, ![47, 128]⟩
abbrev S128x128 : Shape := ⟨2, ![128, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S47x128 : S_.BroadcastsInDim S47x128 (![] : Fin 0 → Fin S47x128.rank)
  reducesTo_S47x128_S_d0_1 : S47x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x256 .f32) (main_arg1 : IVec S600000 32) (main_arg2 : IVec S600000 32) (main_arg3 : FVec F S128x256 .f32) (main_arg4 : FVec F S47x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S47x128 .f32 := Host.absf main_arg4
  let main_cst_2 : FVec F S_ .f32 := constant S_ .f32 0x7F800000#32
  let main_v10 : FVec F S47x128 .f32 := broadcastInDim S47x128 ![] bcast_S_S47x128 main_cst_2
  let main_v11 : IVec S47x128 1 := cmpf .olt main_v9 main_v10
  let main_c_3 : IVec S_ 1 := constantI S_ 1 1#1
  let main_v12 : IVec S_ 1 := (fun x v => Host.reduce IntOp.andi x v reducesTo_S47x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x256 : Shape := ⟨2, ![100000, 256]⟩
abbrev S600000 : Shape := ⟨1, ![600000]⟩
abbrev S128x256 : Shape := ⟨2, ![128, 256]⟩
abbrev S47x128 : Shape := ⟨2, ![47, 128]⟩
abbrev S128x128 : Shape := ⟨2, ![128, 128]⟩
abbrev S128 : Shape := ⟨1, ![128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S256x128 : Shape := ⟨2, ![256, 128]⟩
abbrev S128x47 : Shape := ⟨2, ![128, 47]⟩
abbrev S100000x128 : Shape := ⟨2, ![100000, 128]⟩
abbrev S4000x256 : Shape := ⟨2, ![4000, 256]⟩
abbrev S4000x128 : Shape := ⟨2, ![4000, 128]⟩
abbrev S600000x128 : Shape := ⟨2, ![600000, 128]⟩
abbrev S1x128 : Shape := ⟨2, ![1, 128]⟩
abbrev S100000x47 : Shape := ⟨2, ![100000, 47]⟩
abbrev S4000x47 : Shape := ⟨2, ![4000, 47]⟩

abbrev nBuf : Space → Nat
  | .hbm => 110
  | .vmem => 37
  | .smem => 0
  | _ => 0

abbrev bufTy : (tb : Table) → Fin (tcTables nBuf tb) → BufTy
  | .hbm, ⟨0, _⟩ => ⟨S100000x256, .f32⟩
  | .hbm, ⟨1, _⟩ => ⟨S600000, .i32⟩
  | .hbm, ⟨2, _⟩ => ⟨S600000, .i32⟩
  | .hbm, ⟨3, _⟩ => ⟨S128x256, .f32⟩
  | .hbm, ⟨4, _⟩ => ⟨S47x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S256x128, .f32⟩
  | .hbm, ⟨41, _⟩ => ⟨S128x47, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S100000x128, .f32⟩
  | .hbm, ⟨78, _⟩ => ⟨S600000x1, .i32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x128, .f32⟩
  | .hbm, ⟨98, _⟩ => ⟨S_, .f32⟩
  | .hbm, ⟨99, _⟩ => ⟨S100000x128, .f32⟩
  | .hbm, ⟨100, _⟩ => ⟨S600000x1, .i32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x47, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x47, .f32⟩
  | .local _ .vmem, ⟨35, _⟩ => ⟨S4000x47, .f32⟩
  | .local _ .vmem, ⟨36, _⟩ => ⟨S4000x47, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_c_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x47 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x47 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  transposes_S128x256_S256x128_1_0 : S128x256.Transposes [1, 0] S256x128
  transposes_S47x128_S128x47_1_0 : S47x128.Transposes [1, 0] S128x47
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x47_S128x47_0_0 : ∀ a, (![0, 0] : Fin 2 → Nat) a + S128x47.size a ≤ S128x47.size a
  h_S128x47 : 0 < S128x47.numel
  shapeCasts_S128x47_S128x47 : S128x47.ShapeCasts S128x47
  inb_S4000x47_S4000x47_0_0 : ∀ a, (![0, 0] : Fin 2 → Nat) a + S4000x47.size a ≤ S4000x47.size a
  h_S4000x47 : 0 < S4000x47.numel
  scatter_S100000_S600000x1_S600000_n_0_0_1_wf : ScatterDims.WF S100000 S600000x1 S600000 [] [0] [0] 1
  dot_S4000x256_S256x128_S4000x128_1_0_0_1_n_n_wf : DotDims.WF S4000x256 S256x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x47_S4000x47_1_0_0_1_n_n_wf : DotDims.WF S4000x128 S128x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x47.size a ≤ S128x47.size a
  hwx4_1 : ∀ i : grid4.Coords, EltTy.bits .f32 = 32 ∨ (Rect.block (s := S128x47) S128x47.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x47.size a ≤ S100000x47.size a
  hwx4_2 : ∀ i : grid4.Coords, EltTy.bits .f32 = 32 ∨ (Rect.block (s := S100000x47) S4000x47.size (cc4_transform_2 i) (hinb4_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S128x47.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S4000x47.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S600000 : Shape := ⟨1, ![600000]⟩
abbrev S128x256 : Shape := ⟨2, ![128, 256]⟩
abbrev S47x128 : Shape := ⟨2, ![47, 128]⟩
abbrev S128x128 : Shape := ⟨2, ![128, 128]⟩
abbrev S128 : Shape := ⟨1, ![128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S256x128 : Shape := ⟨2, ![256, 128]⟩
abbrev S100000x128 : Shape := ⟨2, ![100000, 128]⟩
abbrev S600000x128 : Shape := ⟨2, ![600000, 128]⟩
abbrev S1x128 : Shape := ⟨2, ![1, 128]⟩
abbrev S128x47 : Shape := ⟨2, ![128, 47]⟩
abbrev S100000x47 : Shape := ⟨2, ![100000, 47]⟩

abbrev nBuf : Space → Nat
  | .hbm => 173
  | .vmem => 0
  | .smem => 0
  | _ => 0

abbrev hbmTy0_0 (i : Nat) : BufTy := match i % 128 with
  | 0 => ⟨S100000x256, .f32⟩
  | 1 => ⟨S600000, .i32⟩
  | 2 => ⟨S600000, .i32⟩
  | 3 => ⟨S128x256, .f32⟩
  | 4 => ⟨S47x128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S_, .f32⟩
  | 15 => ⟨S600000, .f32⟩
  | 16 => ⟨S_, .f32⟩
  | 17 => ⟨S100000, .f32⟩
  | 18 => ⟨S600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S_, .f32⟩
  | 37 => ⟨S100000, .f32⟩
  | 38 => ⟨S100000, .f32⟩
  | 39 => ⟨S100000x1, .f32⟩
  | 40 => ⟨S256x128, .f32⟩
  | 41 => ⟨S100000x128, .f32⟩
  | 42 => ⟨S100000x128, .f32⟩
  | 43 => ⟨S100000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S_, .f32⟩
  | 54 => ⟨S100000x128, .f32⟩
  | 55 => ⟨S600000x1, .i32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S100000x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S100000x128, .f32⟩
  | 98 => ⟨S600000x1, .i32⟩
  | 99 => ⟨S100000x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x256, .f32⟩

abbrev hbmTy0_1 (i : Nat) : BufTy := match i % 128 with
  | 0 => ⟨S100000x128, .f32⟩
  | 1 => ⟨S100000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S100000x128, .f32⟩
  | 13 => ⟨S600000x1, .i32⟩
  | 14 => ⟨S100000x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S128x47, .f32⟩
  | 44 => ⟨S100000x47, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_6 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩
abbrev main_cst_10 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_14 : Ref sig .tc := ⟨.hbm, 87, rfl⟩
abbrev main_v53 : Ref sig .tc := ⟨.hbm, 88, rfl⟩
abbrev main_v54 : Ref sig .tc := ⟨.hbm, 89, rfl⟩
abbrev main_c_15 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_20 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_21 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_22 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_23 : Ref sig .tc := ⟨.hbm, 130, rfl⟩
abbrev main_v87 : Ref sig .tc := ⟨.hbm, 131, rfl⟩
abbrev main_v88 : Ref sig .tc := ⟨.hbm, 132, rfl⟩
abbrev main_c_24 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_25 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_26 : Ref sig .tc := ⟨.hbm, 145, rfl⟩
abbrev main_v99 : Ref sig .tc := ⟨.hbm, 146, rfl⟩
abbrev main_v100 : Ref sig .tc := ⟨.hbm, 147, rfl⟩
abbrev main_cst_27 : Ref sig .tc := ⟨.hbm, 148, rfl⟩
abbrev main_v101 : Ref sig .tc := ⟨.hbm, 149, rfl⟩
abbrev main_v102 : Ref sig .tc := ⟨.hbm, 150, rfl⟩
abbrev main_cst_28 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_29 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_30 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_31 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  transposes_S128x256_S256x128_1_0 : S128x256.Transposes [1, 0] S256x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S47x128_S128x47_1_0 : S47x128.Transposes [1, 0] S128x47
  scatter_S100000_S600000x1_S600000_n_0_0_1_wf : ScatterDims.WF S100000 S600000x1 S600000 [] [0] [0] 1
  dot_S100000x256_S256x128_S100000x128_1_0_0_1_n_n_wf : DotDims.WF S100000x256 S256x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.Shared.lean ====
/-
  The two host computations both programs share, each named once.

  `degScale idx` is the column vector d^(-1/2) of a list of 600000 node indices: count each node's occurrences (a
  scatter-add of ones into zeros), clip the count below at 1, raise to the power -1/2, and view the result as a
  [100000, 1] column. Applied to the edge sources it scales by out-degree, applied to the targets by in-degree.

  `spread h nsrc ndst src dst` is the degree-normalised neighbourhood sum of the node features `h`: scale row r by
  `nsrc r`, gather the row of each edge's source (a negative index wraps by 100000), scatter-add it into the row of the edge's
  target, scale row r by `ndst r`, and multiply by 0.9.

  Both programs apply exactly these host operations, in this order, so the certificate never looks inside them: it
  only needs that equal arguments give equal values.
-/
import proofs.«121407_j23794118820012_1_alg».proof.Proof.Gen.KernelIdeal
import Idealize.ShloMosaic.PureOps.Ideal

noncomputable section

namespace Cert.KernelIdeal.Shared

open Idealize.ShloMosaic Cert.KernelIdeal Cert.KernelIdeal.Gen

/-- The column d^(-1/2) of the occurrence counts of `idx`, clipped below at 1. -/
def degScale (idx : (⟨S600000, .i32⟩ : BufTy).Contents (Elt Ideal)) : (⟨S100000x1, .f32⟩ : BufTy).Contents (Elt Ideal) :=
  broadcastInDim S100000x1 ![0] bcast_S100000_S100000x1_0
    (Host.powf
      (maximumf (broadcastInDim S100000 ![] bcast_S_S100000 (id (constant (F := Ideal) S_ .f32 0x3F800000#32)))
        (Host.scatterAdd scatter_S100000_S600000x1_S600000_n_0_0_1
          (broadcastInDim S100000 ![] bcast_S_S100000 (constant (F := Ideal) S_ .f32 0x00000000#32))
          (broadcastInDim S600000x1 ![0] bcast_S600000_S600000x1_0 idx)
          (broadcastInDim S600000 ![] bcast_S_S600000 (constant (F := Ideal) S_ .f32 0x3F800000#32))))
      (broadcastInDim S100000 ![] bcast_S_S100000 (constant (F := Ideal) S_ .f32 0xBF000000#32)))

/-- The degree-normalised neighbourhood sum of `h` along the edges `src → dst`, times 0.9. -/
def spread (h : (⟨S100000x128, .f32⟩ : BufTy).Contents (Elt Ideal)) (nsrc ndst : (⟨S100000x1, .f32⟩ : BufTy).Contents (Elt Ideal))
    (src dst : (⟨S600000, .i32⟩ : BufTy).Contents (Elt Ideal)) : (⟨S100000x128, .f32⟩ : BufTy).Contents (Elt Ideal) :=
  mulf
    (mulf
      (Host.scatterAdd scatter_S100000x128_S600000x1_S600000x128_1_0_0_1
        (broadcastInDim S100000x128 ![] bcast_S_S100000x128 (constant (F := Ideal) S_ .f32 0x00000000#32))
        (broadcastInDim S600000x1 ![0] bcast_S600000_S600000x1_0 dst)
        (Host.gather gather_S100000x128_S600000x1_S600000x128_1_0_n_n_0_1_1128
          (mulf h (broadcastInDim S100000x128 ![0, 1] bcast_S100000x1_S100000x128_0_1 nsrc))
          (broadcastInDim S600000x1 ![0] bcast_S600000_S600000x1_0
            (select (cmpi .slt src (broadcastInDim S600000 ![] bcast_S_S600000 (constantI S_ 32 0#32)))
              (addi src (broadcastInDim S600000 ![] bcast_S_S600000 (constantI S_ 32 100000#32)))
              src))))
      (broadcastInDim S100000x128 ![0, 1] bcast_S100000x1_S100000x128_0_1 ndst))
    (broadcastInDim S100000x128 ![] bcast_S_S100000x128 (constant (F := Ideal) S_ .f32 0x3F666666#32))

end Cert.KernelIdeal.Shared

end
-- ==== Proof.Carry.lean ====
/-
  Buffers carried unchanged along the kernel program's run.

  The boundary contents W0 … W13 are a fold through eight host stretches and five regions. A buffer is carried across a
  stretch when no operation of the stretch writes it, across a region when it is none of the region's arrays, and across
  a region that only READS it through an input window because an input window's array ends as it was entered. The lemmas
  below say which boundary's contents a later reader may take each buffer from: the launch arguments from W0, the two
  degree scalings and the transposed output weights from W5, the projected features from W6.
-/
import proofs.«121407_j23794118820012_1_alg».proof.Proof.Gen.KernelIdeal.Frame
import proofs.«121407_j23794118820012_1_alg».proof.Proof.Shared
import Idealize.ShloMosaic.Lib.StableHlo.Run
import Idealize.ShloMosaic.PureOps.Ideal

set_option maxRecDepth 16384

noncomputable section

namespace Cert.KernelIdeal.Carry

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
macro "unwritten" : tactic =>
  `(tactic| (refine StableHlo.after_of_forall_not_mem _ _ (List.forall_iff_forall_mem.mp ?_)
             simp only [hostOps0, hostOps0_1, hostOps0_2, hostOps0_3, hostOps0_4, hostOps1, hostOps2, hostOps3,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The carries -/

theorem keep_arg0_0_5 (c : Dev nD) : W5 m ρ c (Proc.devRef .tc main_arg0) = W0 m ρ c (Proc.devRef .tc main_arg0) :=
  calc W5 m ρ c (Proc.devRef .tc main_arg0)
    _ = W4 m ρ c (Proc.devRef .tc main_arg0) := by show StableHlo.after hostOps0_4 (W4 m ρ c) (Proc.devRef .tc main_arg0) = _; unwritten
    _ = W3 m ρ c (Proc.devRef .tc main_arg0) := by show StableHlo.after hostOps0_3 (W3 m ρ c) (Proc.devRef .tc main_arg0) = _; unwritten
    _ = W2 m ρ c (Proc.devRef .tc main_arg0) := by show StableHlo.after hostOps0_2 (W2 m ρ c) (Proc.devRef .tc main_arg0) = _; unwritten
    _ = W1 m ρ c (Proc.devRef .tc main_arg0) := by show StableHlo.after hostOps0_1 (W1 m ρ c) (Proc.devRef .tc main_arg0) = _; unwritten
    _ = W0 m ρ c (Proc.devRef .tc main_arg0) := by show StableHlo.after hostOps0 (W0 m ρ c) (Proc.devRef .tc main_arg0) = _; unwritten

theorem keep_v11_5_6 (c : Dev nD) : W6 m ρ c (Proc.devRef .tc main_v11) = W5 m ρ c (Proc.devRef .tc main_v11) :=
  calc W6 m ρ c (Proc.devRef .tc main_v11)
    _ = W5 m ρ c (Proc.devRef .tc main_v11) := W6_of_ne m ρ c main_v11 (by decide)

theorem keep_v11_6_8 (c : Dev nD) : W8 m ρ c (Proc.devRef .tc main_v11) = W6 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := by show StableHlo.after hostOps1 (W6 m ρ c) (Proc.devRef .tc main_v11) = _; unwritten

theorem keep_v11_8_10 (c : Dev nD) : W10 m ρ c (Proc.devRef .tc main_v11) = W8 m ρ c (Proc.devRef .tc main_v11) :=
  calc W10 m ρ c (Proc.devRef .tc main_v11)
    _ = W9 m ρ c (Proc.devRef .tc main_v11) := W10_of_ne m ρ c main_v11 (by decide)
    _ = W8 m ρ c (Proc.devRef .tc main_v11) := by show StableHlo.after hostOps2 (W8 m ρ c) (Proc.devRef .tc main_v11) = _; unwritten

theorem keep_v14_5_6 (c : Dev nD) : W6 m ρ c (Proc.devRef .tc main_v14) = W5 m ρ c (Proc.devRef .tc main_v14) :=
  calc W6 m ρ c (Proc.devRef .tc main_v14)
    _ = W5 m ρ c (Proc.devRef .tc main_v14) := W6_of_ne m ρ c main_v14 (by decide)

theorem keep_v14_6_8 (c : Dev nD) : W8 m ρ c (Proc.devRef .tc main_v14) = W6 m ρ c (Proc.devRef .tc main_v14) :=
  calc W8 m ρ c (Proc.devRef .tc main_v14)
    _ = W7 m ρ c (Proc.devRef .tc main_v14) := W8_of_ne m ρ c main_v14 (by decide)
    _ = W6 m ρ c (Proc.devRef .tc main_v14) := by show StableHlo.after hostOps1 (W6 m ρ c) (Proc.devRef .tc main_v14) = _; unwritten

theorem keep_v14_8_10 (c : Dev nD) : W10 m ρ c (Proc.devRef .tc main_v14) = W8 m ρ c (Proc.devRef .tc main_v14) :=
  calc W10 m ρ c (Proc.devRef .tc main_v14)
    _ = W9 m ρ c (Proc.devRef .tc main_v14) := W10_of_ne m ρ c main_v14 (by decide)
    _ = W8 m ρ c (Proc.devRef .tc main_v14) := by show StableHlo.after hostOps2 (W8 m ρ c) (Proc.devRef .tc main_v14) = _; unwritten

theorem keep_arg1_0_6 (c : Dev nD) : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := by show StableHlo.after hostOps0_4 (W4 m ρ c) (Proc.devRef .tc main_arg1) = _; unwritten
    _ = W3 m ρ c (Proc.devRef .tc main_arg1) := by show StableHlo.after hostOps0_3 (W3 m ρ c) (Proc.devRef .tc main_arg1) = _; unwritten
    _ = W2 m ρ c (Proc.devRef .tc main_arg1) := by show StableHlo.after hostOps0_2 (W2 m ρ c) (Proc.devRef .tc main_arg1) = _; unwritten
    _ = W1 m ρ c (Proc.devRef .tc main_arg1) := by show StableHlo.after hostOps0_1 (W1 m ρ c) (Proc.devRef .tc main_arg1) = _; unwritten
    _ = W0 m ρ c (Proc.devRef .tc main_arg1) := by show StableHlo.after hostOps0 (W0 m ρ c) (Proc.devRef .tc main_arg1) = _; unwritten

theorem keep_arg1_6_8 (c : Dev nD) : W8 m ρ c (Proc.devRef .tc main_arg1) = W6 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := by show StableHlo.after hostOps1 (W6 m ρ c) (Proc.devRef .tc main_arg1) = _; unwritten

theorem keep_arg1_8_10 (c : Dev nD) : W10 m ρ c (Proc.devRef .tc main_arg1) = W8 m ρ c (Proc.devRef .tc main_arg1) :=
  calc W10 m ρ c (Proc.devRef .tc main_arg1)
    _ = W9 m ρ c (Proc.devRef .tc main_arg1) := W10_of_ne m ρ c main_arg1 (by decide)
    _ = W8 m ρ c (Proc.devRef .tc main_arg1) := by show StableHlo.after hostOps2 (W8 m ρ c) (Proc.devRef .tc main_arg1) = _; unwritten

theorem keep_arg2_0_6 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := by show StableHlo.after hostOps0_4 (W4 m ρ c) (Proc.devRef .tc main_arg2) = _; unwritten
    _ = W3 m ρ c (Proc.devRef .tc main_arg2) := by show StableHlo.after hostOps0_3 (W3 m ρ c) (Proc.devRef .tc main_arg2) = _; unwritten
    _ = W2 m ρ c (Proc.devRef .tc main_arg2) := by show StableHlo.after hostOps0_2 (W2 m ρ c) (Proc.devRef .tc main_arg2) = _; unwritten
    _ = W1 m ρ c (Proc.devRef .tc main_arg2) := by show StableHlo.after hostOps0_1 (W1 m ρ c) (Proc.devRef .tc main_arg2) = _; unwritten
    _ = W0 m ρ c (Proc.devRef .tc main_arg2) := by show StableHlo.after hostOps0 (W0 m ρ c) (Proc.devRef .tc main_arg2) = _; unwritten

theorem keep_arg2_6_8 (c : Dev nD) : W8 m ρ c (Proc.devRef .tc main_arg2) = W6 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := by show StableHlo.after hostOps1 (W6 m ρ c) (Proc.devRef .tc main_arg2) = _; unwritten

theorem keep_arg2_8_10 (c : Dev nD) : W10 m ρ c (Proc.devRef .tc main_arg2) = W8 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := by show StableHlo.after hostOps2 (W8 m ρ c) (Proc.devRef .tc main_arg2) = _; unwritten

theorem keep_arg7_0_6 (c : Dev nD) : W6 m ρ c (Proc.devRef .tc main_arg7) = W0 m ρ c (Proc.devRef .tc main_arg7) :=
  calc W6 m ρ c (Proc.devRef .tc main_arg7)
    _ = W5 m ρ c (Proc.devRef .tc main_arg7) := W6_of_ne m ρ c main_arg7 (by decide)
    _ = W4 m ρ c (Proc.devRef .tc main_arg7) := by show StableHlo.after hostOps0_4 (W4 m ρ c) (Proc.devRef .tc main_arg7) = _; unwritten
    _ = W3 m ρ c (Proc.devRef .tc main_arg7) := by show StableHlo.after hostOps0_3 (W3 m ρ c) (Proc.devRef .tc main_arg7) = _; unwritten
    _ = W2 m ρ c (Proc.devRef .tc main_arg7) := by show StableHlo.after hostOps0_2 (W2 m ρ c) (Proc.devRef .tc main_arg7) = _; unwritten
    _ = W1 m ρ c (Proc.devRef .tc main_arg7) := by show StableHlo.after hostOps0_1 (W1 m ρ c) (Proc.devRef .tc main_arg7) = _; unwritten
    _ = W0 m ρ c (Proc.devRef .tc main_arg7) := by show StableHlo.after hostOps0 (W0 m ρ c) (Proc.devRef .tc main_arg7) = _; unwritten

theorem keep_v17_6_7 (c : Dev nD) : W7 m ρ c (Proc.devRef .tc main_v17) = W6 m ρ c (Proc.devRef .tc main_v17) :=
  calc W7 m ρ c (Proc.devRef .tc main_v17)
    _ = W6 m ρ c (Proc.devRef .tc main_v17) := by show StableHlo.after hostOps1 (W6 m ρ c) (Proc.devRef .tc main_v17) = _; unwritten

theorem keep_v17_7_9 (c : Dev nD) : W9 m ρ c (Proc.devRef .tc main_v17) = W7 m ρ c (Proc.devRef .tc main_v17) :=
  calc W9 m ρ c (Proc.devRef .tc main_v17)
    _ = W8 m ρ c (Proc.devRef .tc main_v17) := by show StableHlo.after hostOps2 (W8 m ρ c) (Proc.devRef .tc main_v17) = _; unwritten
    _ = W7 m ρ c (Proc.devRef .tc main_v17) := (W8_arr m ρ c 1).trans (((dat1 (V7 m ρ) c).arrAt_in 1 rfl _).trans (A_eq1 (V7 m ρ) c 1))

theorem keep_v17_9_11 (c : Dev nD) : W11 m ρ c (Proc.devRef .tc main_v17) = W9 m ρ c (Proc.devRef .tc main_v17) :=
  calc W11 m ρ c (Proc.devRef .tc main_v17)
    _ = W10 m ρ c (Proc.devRef .tc main_v17) := by show StableHlo.after hostOps3 (W10 m ρ c) (Proc.devRef .tc main_v17) = _; unwritten
    _ = W9 m ρ c (Proc.devRef .tc main_v17) := (W10_arr m ρ c 1).trans (((dat2 (V9 m ρ) c).arrAt_in 1 rfl _).trans (A_eq2 (V9 m ρ) c 1))

theorem keep_arg5_0_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := by show StableHlo.after hostOps1 (W6 m ρ c) (Proc.devRef .tc main_arg5) = _; unwritten
    _ = W5 m ρ c (Proc.devRef .tc main_arg5) := W6_of_ne m ρ c main_arg5 (by decide)
    _ = W4 m ρ c (Proc.devRef .tc main_arg5) := by show StableHlo.after hostOps0_4 (W4 m ρ c) (Proc.devRef .tc main_arg5) = _; unwritten
    _ = W3 m ρ c (Proc.devRef .tc main_arg5) := by show StableHlo.after hostOps0_3 (W3 m ρ c) (Proc.devRef .tc main_arg5) = _; unwritten
    _ = W2 m ρ c (Proc.devRef .tc main_arg5) := by show StableHlo.after hostOps0_2 (W2 m ρ c) (Proc.devRef .tc main_arg5) = _; unwritten
    _ = W1 m ρ c (Proc.devRef .tc main_arg5) := by show StableHlo.after hostOps0_1 (W1 m ρ c) (Proc.devRef .tc main_arg5) = _; unwritten
    _ = W0 m ρ c (Proc.devRef .tc main_arg5) := by show StableHlo.after hostOps0 (W0 m ρ c) (Proc.devRef .tc main_arg5) = _; unwritten

theorem keep_arg6_0_7 (c : Dev nD) : W7 m ρ c (Proc.devRef .tc main_arg6) = W0 m ρ c (Proc.devRef .tc main_arg6) :=
  calc W7 m ρ c (Proc.devRef .tc main_arg6)
    _ = W6 m ρ c (Proc.devRef .tc main_arg6) := by show StableHlo.after hostOps1 (W6 m ρ c) (Proc.devRef .tc main_arg6) = _; unwritten
    _ = W5 m ρ c (Proc.devRef .tc main_arg6) := W6_of_ne m ρ c main_arg6 (by decide)
    _ = W4 m ρ c (Proc.devRef .tc main_arg6) := by show StableHlo.after hostOps0_4 (W4 m ρ c) (Proc.devRef .tc main_arg6) = _; unwritten
    _ = W3 m ρ c (Proc.devRef .tc main_arg6) := by show StableHlo.after hostOps0_3 (W3 m ρ c) (Proc.devRef .tc main_arg6) = _; unwritten
    _ = W2 m ρ c (Proc.devRef .tc main_arg6) := by show StableHlo.after hostOps0_2 (W2 m ρ c) (Proc.devRef .tc main_arg6) = _; unwritten
    _ = W1 m ρ c (Proc.devRef .tc main_arg6) := by show StableHlo.after hostOps0_1 (W1 m ρ c) (Proc.devRef .tc main_arg6) = _; unwritten
    _ = W0 m ρ c (Proc.devRef .tc main_arg6) := by show StableHlo.after hostOps0 (W0 m ρ c) (Proc.devRef .tc main_arg6) = _; unwritten

theorem keep_arg10_0_8 (c : Dev nD) : W8 m ρ c (Proc.devRef .tc main_arg10) = W0 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := by show StableHlo.after hostOps1 (W6 m ρ c) (Proc.devRef .tc main_arg10) = _; unwritten
    _ = W5 m ρ c (Proc.devRef .tc main_arg10) := W6_of_ne m ρ c main_arg10 (by decide)
    _ = W4 m ρ c (Proc.devRef .tc main_arg10) := by show StableHlo.after hostOps0_4 (W4 m ρ c) (Proc.devRef .tc main_arg10) = _; unwritten
    _ = W3 m ρ c (Proc.devRef .tc main_arg10) := by show StableHlo.after hostOps0_3 (W3 m ρ c) (Proc.devRef .tc main_arg10) = _; unwritten
    _ = W2 m ρ c (Proc.devRef .tc main_arg10) := by show StableHlo.after hostOps0_2 (W2 m ρ c) (Proc.devRef .tc main_arg10) = _; unwritten
    _ = W1 m ρ c (Proc.devRef .tc main_arg10) := by show StableHlo.after hostOps0_1 (W1 m ρ c) (Proc.devRef .tc main_arg10) = _; unwritten
    _ = W0 m ρ c (Proc.devRef .tc main_arg10) := by show StableHlo.after hostOps0 (W0 m ρ c) (Proc.devRef .tc main_arg10) = _; unwritten

theorem keep_arg8_0_9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := by show StableHlo.after hostOps2 (W8 m ρ c) (Proc.devRef .tc main_arg8) = _; unwritten
    _ = W7 m ρ c (Proc.devRef .tc main_arg8) := W8_of_ne m ρ c main_arg8 (by decide)
    _ = W6 m ρ c (Proc.devRef .tc main_arg8) := by show StableHlo.after hostOps1 (W6 m ρ c) (Proc.devRef .tc main_arg8) = _; unwritten
    _ = W5 m ρ c (Proc.devRef .tc main_arg8) := W6_of_ne m ρ c main_arg8 (by decide)
    _ = W4 m ρ c (Proc.devRef .tc main_arg8) := by show StableHlo.after hostOps0_4 (W4 m ρ c) (Proc.devRef .tc main_arg8) = _; unwritten
    _ = W3 m ρ c (Proc.devRef .tc main_arg8) := by show StableHlo.after hostOps0_3 (W3 m ρ c) (Proc.devRef .tc main_arg8) = _; unwritten
    _ = W2 m ρ c (Proc.devRef .tc main_arg8) := by show StableHlo.after hostOps0_2 (W2 m ρ c) (Proc.devRef .tc main_arg8) = _; unwritten
    _ = W1 m ρ c (Proc.devRef .tc main_arg8) := by show StableHlo.after hostOps0_1 (W1 m ρ c) (Proc.devRef .tc main_arg8) = _; unwritten
    _ = W0 m ρ c (Proc.devRef .tc main_arg8) := by show StableHlo.after hostOps0 (W0 m ρ c) (Proc.devRef .tc main_arg8) = _; unwritten

theorem keep_arg9_0_9 (c : Dev nD) : W9 m ρ c (Proc.devRef .tc main_arg9) = W0 m ρ c (Proc.devRef .tc main_arg9) :=
  calc W9 m ρ c (Proc.devRef .tc main_arg9)
    _ = W8 m ρ c (Proc.devRef .tc main_arg9) := by show StableHlo.after hostOps2 (W8 m ρ c) (Proc.devRef .tc main_arg9) = _; unwritten
    _ = W7 m ρ c (Proc.devRef .tc main_arg9) := W8_of_ne m ρ c main_arg9 (by decide)
    _ = W6 m ρ c (Proc.devRef .tc main_arg9) := by show StableHlo.after hostOps1 (W6 m ρ c) (Proc.devRef .tc main_arg9) = _; unwritten
    _ = W5 m ρ c (Proc.devRef .tc main_arg9) := W6_of_ne m ρ c main_arg9 (by decide)
    _ = W4 m ρ c (Proc.devRef .tc main_arg9) := by show StableHlo.after hostOps0_4 (W4 m ρ c) (Proc.devRef .tc main_arg9) = _; unwritten
    _ = W3 m ρ c (Proc.devRef .tc main_arg9) := by show StableHlo.after hostOps0_3 (W3 m ρ c) (Proc.devRef .tc main_arg9) = _; unwritten
    _ = W2 m ρ c (Proc.devRef .tc main_arg9) := by show StableHlo.after hostOps0_2 (W2 m ρ c) (Proc.devRef .tc main_arg9) = _; unwritten
    _ = W1 m ρ c (Proc.devRef .tc main_arg9) := by show StableHlo.after hostOps0_1 (W1 m ρ c) (Proc.devRef .tc main_arg9) = _; unwritten
    _ = W0 m ρ c (Proc.devRef .tc main_arg9) := by show StableHlo.after hostOps0 (W0 m ρ c) (Proc.devRef .tc main_arg9) = _; unwritten

theorem keep_arg13_0_10 (c : Dev nD) : W10 m ρ c (Proc.devRef .tc main_arg13) = W0 m ρ c (Proc.devRef .tc main_arg13) :=
  calc W10 m ρ c (Proc.devRef .tc main_arg13)
    _ = W9 m ρ c (Proc.devRef .tc main_arg13) := W10_of_ne m ρ c main_arg13 (by decide)
    _ = W8 m ρ c (Proc.devRef .tc main_arg13) := by show StableHlo.after hostOps2 (W8 m ρ c) (Proc.devRef .tc main_arg13) = _; unwritten
    _ = W7 m ρ c (Proc.devRef .tc main_arg13) := W8_of_ne m ρ c main_arg13 (by decide)
    _ = W6 m ρ c (Proc.devRef .tc main_arg13) := by show StableHlo.after hostOps1 (W6 m ρ c) (Proc.devRef .tc main_arg13) = _; unwritten
    _ = W5 m ρ c (Proc.devRef .tc main_arg13) := W6_of_ne m ρ c main_arg13 (by decide)
    _ = W4 m ρ c (Proc.devRef .tc main_arg13) := by show StableHlo.after hostOps0_4 (W4 m ρ c) (Proc.devRef .tc main_arg13) = _; unwritten
    _ = W3 m ρ c (Proc.devRef .tc main_arg13) := by show StableHlo.after hostOps0_3 (W3 m ρ c) (Proc.devRef .tc main_arg13) = _; unwritten
    _ = W2 m ρ c (Proc.devRef .tc main_arg13) := by show StableHlo.after hostOps0_2 (W2 m ρ c) (Proc.devRef .tc main_arg13) = _; unwritten
    _ = W1 m ρ c (Proc.devRef .tc main_arg13) := by show StableHlo.after hostOps0_1 (W1 m ρ c) (Proc.devRef .tc main_arg13) = _; unwritten
    _ = W0 m ρ c (Proc.devRef .tc main_arg13) := by show StableHlo.after hostOps0 (W0 m ρ c) (Proc.devRef .tc main_arg13) = _; unwritten

theorem keep_arg11_0_11 (c : Dev nD) : W11 m ρ c (Proc.devRef .tc main_arg11) = W0 m ρ c (Proc.devRef .tc main_arg11) :=
  calc W11 m ρ c (Proc.devRef .tc main_arg11)
    _ = W10 m ρ c (Proc.devRef .tc main_arg11) := by show StableHlo.after hostOps3 (W10 m ρ c) (Proc.devRef .tc main_arg11) = _; unwritten
    _ = W9 m ρ c (Proc.devRef .tc main_arg11) := W10_of_ne m ρ c main_arg11 (by decide)
    _ = W8 m ρ c (Proc.devRef .tc main_arg11) := by show StableHlo.after hostOps2 (W8 m ρ c) (Proc.devRef .tc main_arg11) = _; unwritten
    _ = W7 m ρ c (Proc.devRef .tc main_arg11) := W8_of_ne m ρ c main_arg11 (by decide)
    _ = W6 m ρ c (Proc.devRef .tc main_arg11) := by show StableHlo.after hostOps1 (W6 m ρ c) (Proc.devRef .tc main_arg11) = _; unwritten
    _ = W5 m ρ c (Proc.devRef .tc main_arg11) := W6_of_ne m ρ c main_arg11 (by decide)
    _ = W4 m ρ c (Proc.devRef .tc main_arg11) := by show StableHlo.after hostOps0_4 (W4 m ρ c) (Proc.devRef .tc main_arg11) = _; unwritten
    _ = W3 m ρ c (Proc.devRef .tc main_arg11) := by show StableHlo.after hostOps0_3 (W3 m ρ c) (Proc.devRef .tc main_arg11) = _; unwritten
    _ = W2 m ρ c (Proc.devRef .tc main_arg11) := by show StableHlo.after hostOps0_2 (W2 m ρ c) (Proc.devRef .tc main_arg11) = _; unwritten
    _ = W1 m ρ c (Proc.devRef .tc main_arg11) := by show StableHlo.after hostOps0_1 (W1 m ρ c) (Proc.devRef .tc main_arg11) = _; unwritten
    _ = W0 m ρ c (Proc.devRef .tc main_arg11) := by show StableHlo.after hostOps0 (W0 m ρ c) (Proc.devRef .tc main_arg11) = _; unwritten

theorem keep_arg12_0_11 (c : Dev nD) : W11 m ρ c (Proc.devRef .tc main_arg12) = W0 m ρ c (Proc.devRef .tc main_arg12) :=
  calc W11 m ρ c (Proc.devRef .tc main_arg12)
    _ = W10 m ρ c (Proc.devRef .tc main_arg12) := by show StableHlo.after hostOps3 (W10 m ρ c) (Proc.devRef .tc main_arg12) = _; unwritten
    _ = W9 m ρ c (Proc.devRef .tc main_arg12) := W10_of_ne m ρ c main_arg12 (by decide)
    _ = W8 m ρ c (Proc.devRef .tc main_arg12) := by show StableHlo.after hostOps2 (W8 m ρ c) (Proc.devRef .tc main_arg12) = _; unwritten
    _ = W7 m ρ c (Proc.devRef .tc main_arg12) := W8_of_ne m ρ c main_arg12 (by decide)
    _ = W6 m ρ c (Proc.devRef .tc main_arg12) := by show StableHlo.after hostOps1 (W6 m ρ c) (Proc.devRef .tc main_arg12) = _; unwritten
    _ = W5 m ρ c (Proc.devRef .tc main_arg12) := W6_of_ne m ρ c main_arg12 (by decide)
    _ = W4 m ρ c (Proc.devRef .tc main_arg12) := by show StableHlo.after hostOps0_4 (W4 m ρ c) (Proc.devRef .tc main_arg12) = _; unwritten
    _ = W3 m ρ c (Proc.devRef .tc main_arg12) := by show StableHlo.after hostOps0_3 (W3 m ρ c) (Proc.devRef .tc main_arg12) = _; unwritten
    _ = W2 m ρ c (Proc.devRef .tc main_arg12) := by show StableHlo.after hostOps0_2 (W2 m ρ c) (Proc.devRef .tc main_arg12) = _; unwritten
    _ = W1 m ρ c (Proc.devRef .tc main_arg12) := by show StableHlo.after hostOps0_1 (W1 m ρ c) (Proc.devRef .tc main_arg12) = _; unwritten
    _ = W0 m ρ c (Proc.devRef .tc main_arg12) := by show StableHlo.after hostOps0 (W0 m ρ c) (Proc.devRef .tc main_arg12) = _; unwritten

theorem keep_v16_5_12 (c : Dev nD) : W12 m ρ c (Proc.devRef .tc main_v16) = W5 m ρ c (Proc.devRef .tc main_v16) :=
  calc W12 m ρ c (Proc.devRef .tc main_v16)
    _ = W11 m ρ c (Proc.devRef .tc main_v16) := W12_of_ne m ρ c main_v16 (by decide)
    _ = W10 m ρ c (Proc.devRef .tc main_v16) := by show StableHlo.after hostOps3 (W10 m ρ c) (Proc.devRef .tc main_v16) = _; unwritten
    _ = W9 m ρ c (Proc.devRef .tc main_v16) := W10_of_ne m ρ c main_v16 (by decide)
    _ = W8 m ρ c (Proc.devRef .tc main_v16) := by show StableHlo.after hostOps2 (W8 m ρ c) (Proc.devRef .tc main_v16) = _; unwritten
    _ = W7 m ρ c (Proc.devRef .tc main_v16) := W8_of_ne m ρ c main_v16 (by decide)
    _ = W6 m ρ c (Proc.devRef .tc main_v16) := by show StableHlo.after hostOps1 (W6 m ρ c) (Proc.devRef .tc main_v16) = _; unwritten
    _ = W5 m ρ c (Proc.devRef .tc main_v16) := W6_of_ne m ρ c main_v16 (by decide)

end Cert.KernelIdeal.Carry

end
-- ==== Proof.HostEntry.lean ====
/-
  What region 0 is entered with, read out of the five opening host stretches.

  Before its first region the kernel program counts the occurrences of every node among the edge sources and among the
  edge targets, clips, raises to the power -1/2 (the two degree scalings, kept for all three layers) and transposes the
  two projection matrices. Read back through the stretches these four buffers are the shared functions of the launch
  arguments; the outlined clip is two of the stretches, which is why there are five.
-/
import proofs.«121407_j23794118820012_1_alg».proof.Proof.Gen.KernelIdeal.Frame
import proofs.«121407_j23794118820012_1_alg».proof.Proof.Shared
import Idealize.ShloMosaic.Lib.StableHlo.Run
import Idealize.ShloMosaic.PureOps.Ideal

set_option maxRecDepth 16384

noncomputable section

namespace Cert.KernelIdeal.HostEntry

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
macro "unwritten" : tactic =>
  `(tactic| (refine StableHlo.after_of_forall_not_mem _ _ (List.forall_iff_forall_mem.mp ?_)
             simp only [hostOps0, hostOps0_1, hostOps0_2, hostOps0_3, hostOps0_4, hostOps1, hostOps2, hostOps3,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

set_option maxHeartbeats 8000000 in
/-- The out-degree scaling: `degScale` of the edge sources. -/
theorem nsrc5 (c : Dev nD) : W5 m ρ c (Proc.devRef .tc main_v11) = degScale (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v11) = _
  after_results_simp
  rfl

set_option maxHeartbeats 8000000 in
/-- The in-degree scaling: `degScale` of the edge targets. -/
theorem ndst5 (c : Dev nD) : W5 m ρ c (Proc.devRef .tc main_v14) = degScale (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v14) = _
  after_results_simp
  rfl

set_option maxHeartbeats 8000000 in
/-- The input projection's matrix, transposed. -/
theorem lin1T5 (c : Dev nD) : W5 m ρ c (Proc.devRef .tc main_v15) = transpose S256x128 [1, 0] (m ((c : Thread nD τ).loc main_arg3)) transposes_S128x256_S256x128_1_0 := by
  show StableHlo.after hostOps0_4 (StableHlo.after hostOps0_3 (StableHlo.after hostOps0_2 (StableHlo.after hostOps0_1
    (StableHlo.after hostOps0 (W0 m ρ c))))) (Proc.devRef .tc main_v15) = _
  after_results_simp

set_option maxHeartbeats 8000000 in
/-- The output projection's matrix, transposed. -/
theorem lin2T5 (c : Dev nD) : W5 m ρ c (Proc.devRef .tc main_v16) = transpose S128x47 [1, 0] (m ((c : Thread nD τ).loc main_arg4)) transposes_S47x128_S128x47_1_0 := by
  show StableHlo.after hostOps0_4 (StableHlo.after hostOps0_3 (StableHlo.after hostOps0_2 (StableHlo.after hostOps0_1
    (StableHlo.after hostOps0 (W0 m ρ c))))) (Proc.devRef .tc main_v16) = _
  after_results_simp

end Cert.KernelIdeal.HostEntry

end
-- ==== Proof.HostStretch.lean ====
/-
  What each layer region is entered with, read out of the host stretch before it.

  Before each of the three layer regions the kernel program forms the neighbourhood sum of the previous hidden state (the
  projected features for the first layer) and reshapes the layer's bias vector to a row. Read back, the first is the shared
  function `spread` of five buffers as the stretch finds them, the second a reshape of the bias argument.
-/
import proofs.«121407_j23794118820012_1_alg».proof.Proof.Gen.KernelIdeal.Frame
import proofs.«121407_j23794118820012_1_alg».proof.Proof.Shared
import Idealize.ShloMosaic.Lib.StableHlo.Run
import Idealize.ShloMosaic.PureOps.Ideal

set_option maxRecDepth 16384

noncomputable section

namespace Cert.KernelIdeal.HostStretch

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
macro "unwritten" : tactic =>
  `(tactic| (refine StableHlo.after_of_forall_not_mem _ _ (List.forall_iff_forall_mem.mp ?_)
             simp only [hostOps0, hostOps0_1, hostOps0_2, hostOps0_3, hostOps0_4, hostOps1, hostOps2, hostOps3,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Region 1's entry -/

set_option maxHeartbeats 8000000 in
/-- The neighbourhood sum of the previous hidden state, from the buffers the stretch reads. -/
theorem feat1 (c : Dev nD) :
    W7 m ρ c (Proc.devRef .tc main_v33)
      = spread (W6 m ρ c (Proc.devRef .tc main_v17)) (W6 m ρ c (Proc.devRef .tc main_v11))
          (W6 m ρ c (Proc.devRef .tc main_v14)) (W6 m ρ c (Proc.devRef .tc main_arg1)) (W6 m ρ c (Proc.devRef .tc main_arg2)) := by
  show StableHlo.after hostOps1 (W6 m ρ c) (Proc.devRef .tc main_v33) = _
  generalize W6 m ρ c = U
  after_results_simp
  rfl

set_option maxHeartbeats 8000000 in
/-- The layer's bias, reshaped to a row. -/
theorem bias1 (c : Dev nD) :
    W7 m ρ c (Proc.devRef .tc main_v34) = shapeCast S1x128 (W6 m ρ c (Proc.devRef .tc main_arg7)) shapeCasts_S128_S1x128 := by
  show StableHlo.after hostOps1 (W6 m ρ c) (Proc.devRef .tc main_v34) = _
  generalize W6 m ρ c = U
  after_results_simp
  rfl

/-! ## Region 2's entry -/

set_option maxHeartbeats 8000000 in
/-- The neighbourhood sum of the previous hidden state, from the buffers the stretch reads. -/
theorem feat2 (c : Dev nD) :
    W9 m ρ c (Proc.devRef .tc main_v51)
      = spread (W8 m ρ c (Proc.devRef .tc main_v35)) (W8 m ρ c (Proc.devRef .tc main_v11))
          (W8 m ρ c (Proc.devRef .tc main_v14)) (W8 m ρ c (Proc.devRef .tc main_arg1)) (W8 m ρ c (Proc.devRef .tc main_arg2)) := by
  show StableHlo.after hostOps2 (W8 m ρ c) (Proc.devRef .tc main_v51) = _
  generalize W8 m ρ c = U
  after_results_simp
  rfl

set_option maxHeartbeats 8000000 in
/-- The layer's bias, reshaped to a row. -/
theorem bias2 (c : Dev nD) :
    W9 m ρ c (Proc.devRef .tc main_v52) = shapeCast S1x128 (W8 m ρ c (Proc.devRef .tc main_arg10)) shapeCasts_S128_S1x128 := by
  show StableHlo.after hostOps2 (W8 m ρ c) (Proc.devRef .tc main_v52) = _
  generalize W8 m ρ c = U
  after_results_simp
  rfl

/-! ## Region 3's entry -/

set_option maxHeartbeats 8000000 in
/-- The neighbourhood sum of the previous hidden state, from the buffers the stretch reads. -/
theorem feat3 (c : Dev nD) :
    W11 m ρ c (Proc.devRef .tc main_v69)
      = spread (W10 m ρ c (Proc.devRef .tc main_v53)) (W10 m ρ c (Proc.devRef .tc main_v11))
          (W10 m ρ c (Proc.devRef .tc main_v14)) (W10 m ρ c (Proc.devRef .tc main_arg1)) (W10 m ρ c (Proc.devRef .tc main_arg2)) := by
  show StableHlo.after hostOps3 (W10 m ρ c) (Proc.devRef .tc main_v69) = _
  generalize W10 m ρ c = U
  after_results_simp
  rfl

set_option maxHeartbeats 8000000 in
/-- The layer's bias, reshaped to a row. -/
theorem bias3 (c : Dev nD) :
    W11 m ρ c (Proc.devRef .tc main_v70) = shapeCast S1x128 (W10 m ρ c (Proc.devRef .tc main_arg13)) shapeCasts_S128_S1x128 := by
  show StableHlo.after hostOps3 (W10 m ρ c) (Proc.devRef .tc main_v70) = _
  generalize W10 m ρ c = U
  after_results_simp
  rfl

end Cert.KernelIdeal.HostStretch

end
-- ==== Proof.Formula.lean ====
/-
  The pointwise formulas of this certificate, over the extended reals.

  The program computes, for node features X : [100000, 256] and an edge list (src, dst) of 600000 edges,
    x0 = X · L1ᵀ,   h_0 = x0,
    h_l = layer_l (spread h_(l-1)) x0      (l = 1, 2, 3),
    out = h_3 · L2ᵀ,
  where `spread` is the degree-normalised neighbourhood sum (a gather along src, a scatter-add along dst, two
  row scalings and the factor 0.9) and
    layer (feat, x0) = (((a · feat + b · (feat · W1)) + a · f0) + b · (f0 · W2)) + bias,   f0 = x0 · 0.1,
  with a = 1 − β_l and b = β_l the two literals of layer l. The dense pieces — the two projections and the layer —
  are what the kernel computes block by block (4000 rows at a time) and the reference on whole arrays; entry by
  entry they are the sums below. No law beyond reading each side at an index is used: the sums run over the same
  index set in both programs, so nothing here needs the inputs to be finite.
-/
import proofs.«121407_j23794118820012_1_alg».proof.KernelIdeal
import Idealize.ShloMosaic.PureOps.Ideal
import Idealize.ShloMosaic.Lib.ValueIdx

noncomputable section

namespace Cert.KernelIdeal.Formula

open Idealize.ShloMosaic Idealize.ShloMosaic.ValueIdx Cert.KernelIdeal

/-- The literal 0.1 (as the f32 word both programs carry), the scale of the initial features `f0 = x0 · 0.1`. -/
def tenth : EReal := Ideal.ofBits .f32 0x3DCCCCCD#32

/-- Entry (r, j) of `x · w` for `x : [100000, 256]`, `w : [256, 128]`: the input projection. -/
def inProjAt (x : S100000x256.Idx → EReal) (w : S256x128.Idx → EReal) (i : S100000x128.Idx) : EReal :=
  ∑ k : Fin 256, x (ix2 (n0 := 100000) (n1 := 256) (i 0) k) * w (ix2 (n0 := 256) (n1 := 128) k (i 1))

/-- Entry (r, j) of `h · w` for `h : [100000, 128]`, `w : [128, 47]`: the output projection. -/
def outProjAt (h : S100000x128.Idx → EReal) (w : S128x47.Idx → EReal) (i : S100000x47.Idx) : EReal :=
  ∑ k : Fin 128, h (ix2 (n0 := 100000) (n1 := 128) (i 0) k) * w (ix2 (n0 := 128) (n1 := 47) k (i 1))

/-- Entry (r, j) of `f · w` for `f : [100000, 128]`, `w : [128, 128]`: a row of `f` against a column of `w`. -/
def rowDot (f : S100000x128.Idx → EReal) (w : S128x128.Idx → EReal) (i : S100000x128.Idx) : EReal :=
  ∑ k : Fin 128, f (ix2 (n0 := 100000) (n1 := 128) (i 0) k) * w (ix2 (n0 := 128) (n1 := 128) k (i 1))

/-- Entry (r, j) of one layer's output: `(((a·feat + b·(feat·W1)) + a·f0) + b·(f0·W2)) + bias`, with `f0 = x0 · 0.1`
    and the bias row read at column `j`. The sums are associated exactly as both programs associate them. -/
def layerAt (a b : EReal) (feat x0 : S100000x128.Idx → EReal) (w1 w2 : S128x128.Idx → EReal)
    (bias : S1x128.Idx → EReal) (i : S100000x128.Idx) : EReal :=
  (((a * feat i + b * rowDot feat w1 i) + a * (x0 i * tenth)) + b * rowDot (fun j => x0 j * tenth) w2 i)
    + bias (ix2 (n0 := 1) (n1 := 128) 0 (i 1))

end Cert.KernelIdeal.Formula

end
-- ==== Proof.InProjRegion.lean ====
/-
  The input projection, x0 = X · L1ᵀ, block by block.

  The region walks the 100000 rows of the features X : [100000, 256] in 25 blocks of 4000 rows. At block t it holds
  rows 4000·t … 4000·t + 3999 of X and the whole weight matrix W : [256, 128] (the transposed L1), multiplies the two
  (an exact product over the extended reals: the narrowing of the operands is the identity there and the accumulator
  starts at zero), and writes the [4000, 128] product back as rows 4000·t … 4000·t + 3999 of the result.

  Entry (p, q) of the block product is  ∑ k, X (4000·t + p, k) · W (k, q),  which is entry (4000·t + p, q) of the
  whole product: an entry of the result depends on one row of X and one column of W only, so it does not matter
  which block the row sits in. The 25 blocks tile the result (row r lies in block r / 4000), hence the result array
  ends holding the whole product, entry by entry.
-/
import proofs.«121407_j23794118820012_1_alg».proof.Proof.Gen.KernelIdeal.Frame
import proofs.«121407_j23794118820012_1_alg».proof.Proof.Formula
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.InProj

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block product, entry by entry -/

/-- The zero offsets of a whole-buffer access, as the constant function. -/
theorem zero_off : (![0, 0] : Fin 2 → Nat) = fun _ => 0 := funext fun a => by fin_cases a <;> rfl

/-- The left operand of the product is read at the output's row … -/
theorem lhs_row (j : S4000x128.Idx) (k : dot_S4000x256_S256x128_S4000x128_1_0_0_1_n_n.contr.Idx) :
    (dot_S4000x256_S256x128_S4000x128_1_0_0_1_n_n.lhsIdx j k 0).val = (j 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- … and at the summation index as its column. -/
theorem lhs_col (j : S4000x128.Idx) (k : dot_S4000x256_S256x128_S4000x128_1_0_0_1_n_n.contr.Idx) :
    (dot_S4000x256_S256x128_S4000x128_1_0_0_1_n_n.lhsIdx j k 1).val = (k ⟨0, by decide⟩).val :=
  dot_S4000x256_S256x128_S4000x128_1_0_0_1_n_n.lhsIdx_val_of_single rfl j k
/-- The right operand is read at the summation index as its row … -/
theorem rhs_row (j : S4000x128.Idx) (k : dot_S4000x256_S256x128_S4000x128_1_0_0_1_n_n.contr.Idx) :
    (dot_S4000x256_S256x128_S4000x128_1_0_0_1_n_n.rhsIdx j k 0).val = (k ⟨0, by decide⟩).val :=
  dot_S4000x256_S256x128_S4000x128_1_0_0_1_n_n.rhsIdx_val_of_single rfl j k
/-- … and at the output's column. -/
theorem rhs_col (j : S4000x128.Idx) (k : dot_S4000x256_S256x128_S4000x128_1_0_0_1_n_n.contr.Idx) :
    (dot_S4000x256_S256x128_S4000x128_1_0_0_1_n_n.rhsIdx j k 1).val = (j 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of what one block computes from a block `x` of 4000 feature rows and the weights `w`:
    row p of `x` against column q of `w`, an exact sum of 256 products. -/
theorem blockProduct_entry (x : Vec Ideal S4000x256 .f32) (w : Vec Ideal S256x128 .f32) (p : Fin 4000) (q : Fin 128) :
    k0_pay1 (F := Ideal) x w (ix2 p q) = ∑ k : Fin 256, x (ix2 p k) * w (ix2 k q) := by
  generalize hj : (ix2 p q : S4000x128.Idx) = j
  have hp : (j 0).val = p.val := by rw [← hj]
  have hq : (j 1).val = q.val := by rw [← hj]
  unfold k0_pay1
  rw [shapeCast_self]
  refine (Ideal.matmul_constant_zero_apply dot_S4000x256_S256x128_S4000x128_1_0_0_1_n_n none _ _ j).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx j ((contrEquiv1 dot_S4000x256_S256x128_S4000x128_1_0_0_1_n_n 256 rfl rfl).symm k)
      = ix2 p k := funext fun a => Fin.ext (by
    match a with
    | ⟨0, _⟩ => exact (lhs_row _ _).trans hp
    | ⟨1, _⟩ => exact (lhs_col _ _).trans hk)
  have er : dot_S4000x256_S256x128_S4000x128_1_0_0_1_n_n.rhsIdx j ((contrEquiv1 dot_S4000x256_S256x128_S4000x128_1_0_0_1_n_n 256 rfl rfl).symm k)
      = ix2 k q := funext fun a => Fin.ext (by
    match a with
    | ⟨0, _⟩ => exact (rhs_row _ _).trans hk
    | ⟨1, _⟩ => exact (rhs_col _ _).trans hq)
  show x (dot_S4000x256_S256x128_S4000x128_1_0_0_1_n_n.lhsIdx j _) * w (dot_S4000x256_S256x128_S4000x128_1_0_0_1_n_n.rhsIdx j _) = _
  rw [el, er]

/-- The same at any entry `j` of the block, by its two coordinates. -/
theorem blockProduct_apply (x : Vec Ideal S4000x256 .f32) (w : Vec Ideal S256x128 .f32) (j : S4000x128.Idx) :
    k0_pay1 (F := Ideal) x w j
      = ∑ k : Fin 256, x (ix2 (n0 := 4000) (n1 := 256) (j 0) k) * w (ix2 (n0 := 256) (n1 := 128) k (j 1)) := by
  obtain ⟨p, q, rfl⟩ : ∃ (p : Fin 4000) (q : Fin 128), j = ix2 p q := ⟨j 0, j 1, eq_ix2 j⟩
  exact blockProduct_entry x w p q

/-! ## Where each block sits -/

/-- The block indices over the 25 grid points: the features' and the result's blocks move down one block of rows per
    point and stay at column block 0; the weights' one block is the whole matrix. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 4000·t + p of the features; the columns are the same. -/
theorem features_block (c : Dev nD) (t : Fin cfg0.N) (y : S4000x256.Idx) (i : S100000x256.Idx)
    (h0 : (i 0).val = t.val * 4000 + (y 0).val) (h1 : (i 1).val = (y 1).val) :
    (iblk0 V c 0 t : Vec Ideal S4000x256 .f32) y = V c main_arg0 i := by
  obtain ⟨e0, e1, -, -, -, -⟩ := block_index t
  show V c main_arg0 (((cfg0.win 0).blk t).view.emb y) = V c main_arg0 i
  refine congrArg (V c main_arg0) ?_
  funext a; apply Fin.ext
  match a with
  | ⟨0, _⟩ => show win0_0.index t (0 : Fin 2) * 4000 + 1 * (y 0).val = (i 0).val; omega
  | ⟨1, _⟩ => show win0_0.index t (1 : Fin 2) * 256 + 1 * (y 1).val = (i 1).val; omega

/-- The weights' block at every point is the whole weight matrix. -/
theorem weights_block (c : Dev nD) (t : Fin cfg0.N) (y : S256x128.Idx) (i : S256x128.Idx)
    (h0 : (i 0).val = (y 0).val) (h1 : (i 1).val = (y 1).val) :
    (iblk0 V c 1 t : Vec Ideal S256x128 .f32) y = V c main_v15 i := by
  obtain ⟨-, -, e2, e3, -, -⟩ := block_index t
  show V c main_v15 (((cfg0.win 1).blk t).view.emb y) = V c main_v15 i
  refine congrArg (V c main_v15) ?_
  funext a; apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- Row p of the result's block at point t is row 4000·t + p of the result; the columns are the same. -/
theorem result_block (t : Fin cfg0.N) (y : S4000x128.Idx) :
    ((((cfg0.win 2).blk t).view.emb y : S100000x128.Idx) 0).val = t.val * 4000 + (y 0).val
    ∧ ((((cfg0.win 2).blk t).view.emb y : S100000x128.Idx) 1).val = (y 1).val := by
  obtain ⟨-, -, -, -, e4, e5⟩ := block_index t
  constructor
  · show win0_2.index t (0 : Fin 2) * 4000 + 1 * (y 0).val = _; omega
  · show win0_2.index t (1 : Fin 2) * 128 + 1 * (y 1).val = _; omega

/-! ## What each point writes back, and the array after the last point -/

/-- Point t writes back block t of the whole product: its entry (p, q) is row 4000·t + p of the features against
    column q of the weights. -/
theorem flushed_eq (c : Dev nD) (t : Fin cfg0.N) :
    (dat0 V c).flushed 2 t
      = ((cfg0.win 2).blk t).view.read (Elt Ideal) (Formula.inProjAt (V c main_arg0) (V c main_v15)) := by
  show (cfg0.win 2).cut (grid0.coords t) ((dat0 V c).after 2 t) = _
  rw [after0_2]
  unfold out0_2
  rw [View.canon_unit_zero zero_off]
  simp only [View.ld_unit_zero (S := S4000x256) zero_off, View.ld_unit_zero (S := S256x128) zero_off]
  funext j
  obtain ⟨r0, r1⟩ := result_block t j
  show k0_pay1 (F := Ideal) (iblk0 V c 0 t) (iblk0 V c 1 t) j
    = Formula.inProjAt (V c main_arg0) (V c main_v15) (((cfg0.win 2).blk t).view.emb j)
  refine (blockProduct_apply (iblk0 V c 0 t) (iblk0 V c 1 t) j).trans ?_
  unfold Formula.inProjAt
  refine Finset.sum_congr rfl fun k _ => ?_
  rw [features_block V c t (ix2 (n0 := 4000) (n1 := 256) (j 0) k)
        (ix2 (n0 := 100000) (n1 := 256) ((((cfg0.win 2).blk t).view.emb j : S100000x128.Idx) 0) k) r0 rfl,
      weights_block V c t (ix2 (n0 := 256) (n1 := 128) k (j 1))
        (ix2 (n0 := 256) (n1 := 128) k ((((cfg0.win 2).blk t).view.emb j : S100000x128.Idx) 1)) rfl r1]

/-- Row r of the result lies in block r / 4000 (and every column in the one column block). -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < 25; omega⟩, rfl⟩
  obtain ⟨-, -, -, -, e4, e5⟩ := block_index t
  refine ⟨t, flush0_2 t, ?_⟩
  show i ∈ ((View.whole main_v17).slice (win0_2.rect t)).set
  rw [View.set_slice_whole, Rect.mem_set_unit]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the last point the result array holds the whole product X · W, entry by entry. -/
theorem final (c : Dev nD) :
    (dat0 V c).arrAt 2 cfg0.N = Formula.inProjAt (V c main_arg0) (V c main_v15) :=
  (dat0 V c).arrAt_eq_of_cover 2 (Formula.inProjAt (V c main_arg0) (V c main_v15))
    (fun t _ => flushed_eq V c t) covered

end Cert.KernelIdeal.InProj

end
-- ==== Proof.OutProjRegion.lean ====
/-
  The output projection, out = h · L2ᵀ, block by block.

  The region walks the 100000 rows of the last layer's features h : [100000, 128] in 25 blocks of 4000 rows. At block
  t it holds rows 4000·t … 4000·t + 3999 of h and the whole weight matrix W : [128, 47] (the transposed L2), multiplies
  the two (an exact product over the extended reals: the narrowing of the operands is the identity there and the
  accumulator starts at zero), and writes the [4000, 47] product back as rows 4000·t … 4000·t + 3999 of the result.

  Entry (p, q) of the block product is  ∑ k, h (4000·t + p, k) · W (k, q),  which is entry (4000·t + p, q) of the
  whole product: an entry of the result depends on one row of h and one column of W only, so it does not matter
  which block the row sits in. The 25 blocks tile the result (row r lies in block r / 4000), hence the result array
  ends holding the whole product, entry by entry.
-/
import proofs.«121407_j23794118820012_1_alg».proof.Proof.Gen.KernelIdeal.Frame
import proofs.«121407_j23794118820012_1_alg».proof.Proof.Formula
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.OutProj

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block product, entry by entry -/

/-- The zero offsets of a whole-buffer access, as the constant function. -/
theorem zero_off : (![0, 0] : Fin 2 → Nat) = fun _ => 0 := funext fun a => by fin_cases a <;> rfl

/-- The left operand of the product is read at the output's row … -/
theorem lhs_row (j : S4000x47.Idx) (k : dot_S4000x128_S128x47_S4000x47_1_0_0_1_n_n.contr.Idx) :
    (dot_S4000x128_S128x47_S4000x47_1_0_0_1_n_n.lhsIdx j k 0).val = (j 0).val := by
  unfold DotDims.lhsIdx
  rw [dif_neg (show ¬(0 : Fin S4000x128.rank) ∈ dot_S4000x128_S128x47_S4000x47_1_0_0_1_n_n.lhsBatch by decide), dif_pos (show (0 : Fin S4000x128.rank) ∈ dot_S4000x128_S128x47_S4000x47_1_0_0_1_n_n.lhsNonContracting by decide)]
  rfl
/-- … and at the summation index as its column. -/
theorem lhs_col (j : S4000x47.Idx) (k : dot_S4000x128_S128x47_S4000x47_1_0_0_1_n_n.contr.Idx) :
    (dot_S4000x128_S128x47_S4000x47_1_0_0_1_n_n.lhsIdx j k 1).val = (k ⟨0, by decide⟩).val :=
  dot_S4000x128_S128x47_S4000x47_1_0_0_1_n_n.lhsIdx_val_of_single rfl j k
/-- The right operand is read at the summation index as its row … -/
theorem rhs_row (j : S4000x47.Idx) (k : dot_S4000x128_S128x47_S4000x47_1_0_0_1_n_n.contr.Idx) :
    (dot_S4000x128_S128x47_S4000x47_1_0_0_1_n_n.rhsIdx j k 0).val = (k ⟨0, by decide⟩).val :=
  dot_S4000x128_S128x47_S4000x47_1_0_0_1_n_n.rhsIdx_val_of_single rfl j k
/-- … and at the output's column. -/
theorem rhs_col (j : S4000x47.Idx) (k : dot_S4000x128_S128x47_S4000x47_1_0_0_1_n_n.contr.Idx) :
    (dot_S4000x128_S128x47_S4000x47_1_0_0_1_n_n.rhsIdx j k 1).val = (j 1).val := by
  unfold DotDims.rhsIdx
  rw [dif_neg (show ¬(1 : Fin S128x47.rank) ∈ dot_S4000x128_S128x47_S4000x47_1_0_0_1_n_n.rhsBatch by decide), dif_pos (show (1 : Fin S128x47.rank) ∈ dot_S4000x128_S128x47_S4000x47_1_0_0_1_n_n.rhsNonContracting by decide)]
  rfl

/-- Entry (p, q) of what one block computes from a block `x` of 4000 feature rows and the weights `w`:
    row p of `x` against column q of `w`, an exact sum of 128 products. -/
theorem blockProduct_entry (x : Vec Ideal S4000x128 .f32) (w : Vec Ideal S128x47 .f32) (p : Fin 4000) (q : Fin 47) :
    k4_pay1 (F := Ideal) x w (ix2 p q) = ∑ k : Fin 128, x (ix2 p k) * w (ix2 k q) := by
  generalize hj : (ix2 p q : S4000x47.Idx) = j
  have hp : (j 0).val = p.val := by rw [← hj]
  have hq : (j 1).val = q.val := by rw [← hj]
  unfold k4_pay1
  rw [shapeCast_self, shapeCast_self]
  refine (Ideal.matmul_constant_zero_apply dot_S4000x128_S128x47_S4000x47_1_0_0_1_n_n none _ _ j).trans ?_
  rw [← Equiv.sum_comp (contrEquiv1 dot_S4000x128_S128x47_S4000x47_1_0_0_1_n_n 128 rfl rfl).symm]
  refine Finset.sum_congr rfl fun k _ => ?_
  have hk := contrEquiv1_symm_val dot_S4000x128_S128x47_S4000x47_1_0_0_1_n_n 128 rfl rfl k
  have el : dot_S4000x128_S128x47_S4000x47_1_0_0_1_n_n.lhsIdx j ((contrEquiv1 dot_S4000x128_S128x47_S4000x47_1_0_0_1_n_n 128 rfl rfl).symm k)
      = ix2 p k := funext fun a => Fin.ext (by
    match a with
    | ⟨0, _⟩ => exact (lhs_row _ _).trans hp
    | ⟨1, _⟩ => exact (lhs_col _ _).trans hk)
  have er : dot_S4000x128_S128x47_S4000x47_1_0_0_1_n_n.rhsIdx j ((contrEquiv1 dot_S4000x128_S128x47_S4000x47_1_0_0_1_n_n 128 rfl rfl).symm k)
      = ix2 k q := funext fun a => Fin.ext (by
    match a with
    | ⟨0, _⟩ => exact (rhs_row _ _).trans hk
    | ⟨1, _⟩ => exact (rhs_col _ _).trans hq)
  show x (dot_S4000x128_S128x47_S4000x47_1_0_0_1_n_n.lhsIdx j _) * w (dot_S4000x128_S128x47_S4000x47_1_0_0_1_n_n.rhsIdx j _) = _
  rw [el, er]

/-- The same at any entry `j` of the block, by its two coordinates. -/
theorem blockProduct_apply (x : Vec Ideal S4000x128 .f32) (w : Vec Ideal S128x47 .f32) (j : S4000x47.Idx) :
    k4_pay1 (F := Ideal) x w j
      = ∑ k : Fin 128, x (ix2 (n0 := 4000) (n1 := 128) (j 0) k) * w (ix2 (n0 := 128) (n1 := 47) k (j 1)) := by
  obtain ⟨p, q, rfl⟩ : ∃ (p : Fin 4000) (q : Fin 47), j = ix2 p q := ⟨j 0, j 1, eq_ix2 j⟩
  exact blockProduct_entry x w p q

/-! ## Where each block sits -/

/-- The block indices over the 25 grid points: the features' and the result's blocks move down one block of rows per
    point and stay at column block 0; the weights' one block is the whole matrix. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the features' block at point t is row 4000·t + p of the features; the columns are the same. -/
theorem features_block (c : Dev nD) (t : Fin cfg4.N) (y : S4000x128.Idx) (i : S100000x128.Idx)
    (h0 : (i 0).val = t.val * 4000 + (y 0).val) (h1 : (i 1).val = (y 1).val) :
    (iblk4 V c 0 t : Vec Ideal S4000x128 .f32) y = V c main_v71 i := by
  obtain ⟨e0, e1, -, -, -, -⟩ := block_index t
  show V c main_v71 (((cfg4.win 0).blk t).view.emb y) = V c main_v71 i
  refine congrArg (V c main_v71) ?_
  funext a; apply Fin.ext
  match a with
  | ⟨0, _⟩ => show win4_0.index t (0 : Fin 2) * 4000 + 1 * (y 0).val = (i 0).val; omega
  | ⟨1, _⟩ => show win4_0.index t (1 : Fin 2) * 128 + 1 * (y 1).val = (i 1).val; omega

/-- The weights' block at every point is the whole weight matrix. -/
theorem weights_block (c : Dev nD) (t : Fin cfg4.N) (y : S128x47.Idx) (i : S128x47.Idx)
    (h0 : (i 0).val = (y 0).val) (h1 : (i 1).val = (y 1).val) :
    (iblk4 V c 1 t : Vec Ideal S128x47 .f32) y = V c main_v16 i := by
  obtain ⟨-, -, e2, e3, -, -⟩ := block_index t
  show V c main_v16 (((cfg4.win 1).blk t).view.emb y) = V c main_v16 i
  refine congrArg (V c main_v16) ?_
  funext a; apply Fin.ext
  match a with
  | ⟨0, _⟩ => show win4_1.index t (0 : Fin 2) * 128 + 1 * (y 0).val = (i 0).val; omega
  | ⟨1, _⟩ => show win4_1.index t (1 : Fin 2) * 47 + 1 * (y 1).val = (i 1).val; omega

/-- Row p of the result's block at point t is row 4000·t + p of the result; the columns are the same. -/
theorem result_block (t : Fin cfg4.N) (y : S4000x47.Idx) :
    ((((cfg4.win 2).blk t).view.emb y : S100000x47.Idx) 0).val = t.val * 4000 + (y 0).val
    ∧ ((((cfg4.win 2).blk t).view.emb y : S100000x47.Idx) 1).val = (y 1).val := by
  obtain ⟨-, -, -, -, e4, e5⟩ := block_index t
  constructor
  · show win4_2.index t (0 : Fin 2) * 4000 + 1 * (y 0).val = _; omega
  · show win4_2.index t (1 : Fin 2) * 47 + 1 * (y 1).val = _; omega

/-! ## What each point writes back, and the array after the last point -/

/-- Point t writes back block t of the whole product: its entry (p, q) is row 4000·t + p of the features against
    column q of the weights. -/
theorem flushed_eq (c : Dev nD) (t : Fin cfg4.N) :
    (dat4 V c).flushed 2 t
      = ((cfg4.win 2).blk t).view.read (Elt Ideal) (Formula.outProjAt (V c main_v71) (V c main_v16)) := by
  show (cfg4.win 2).cut (grid4.coords t) ((dat4 V c).after 2 t) = _
  rw [after4_2]
  unfold out4_2
  rw [View.canon_unit_zero zero_off]
  simp only [View.ld_unit_zero (S := S4000x128) zero_off, View.ld_unit_zero (S := S128x47) zero_off]
  funext j
  obtain ⟨r0, r1⟩ := result_block t j
  show k4_pay1 (F := Ideal) (iblk4 V c 0 t) (iblk4 V c 1 t) j
    = Formula.outProjAt (V c main_v71) (V c main_v16) (((cfg4.win 2).blk t).view.emb j)
  refine (blockProduct_apply (iblk4 V c 0 t) (iblk4 V c 1 t) j).trans ?_
  unfold Formula.outProjAt
  refine Finset.sum_congr rfl fun k _ => ?_
  rw [features_block V c t (ix2 (n0 := 4000) (n1 := 128) (j 0) k)
        (ix2 (n0 := 100000) (n1 := 128) ((((cfg4.win 2).blk t).view.emb j : S100000x47.Idx) 0) k) r0 rfl,
      weights_block V c t (ix2 (n0 := 128) (n1 := 47) k (j 1))
        (ix2 (n0 := 128) (n1 := 47) k ((((cfg4.win 2).blk t).view.emb j : S100000x47.Idx) 1)) rfl r1]

/-- Row r of the result lies in block r / 4000 (and every column in the one column block). -/
theorem covered (i : S100000x47.Idx) :
    ∃ t : Fin cfg4.N, (cfg4.win 2).flush t = true ∧ i ∈ ((cfg4.win 2).blk t).view.set := by
  have hi0 : (i 0).val < 100000 := (i 0).isLt
  have hi1 : (i 1).val < 47 := (i 1).isLt
  obtain ⟨t, ht⟩ : ∃ t : Fin cfg4.N, t.val = (i 0).val / 4000 :=
    ⟨⟨(i 0).val / 4000, by show (i 0).val / 4000 < 25; omega⟩, rfl⟩
  obtain ⟨-, -, -, -, e4, e5⟩ := block_index t
  refine ⟨t, flush4_2 t, ?_⟩
  show i ∈ ((View.whole main_v72).slice (win4_2.rect t)).set
  rw [View.set_slice_whole, Rect.mem_set_unit]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 47 ≤ (i 1).val ∧ (i 1).val < win4_2.index t (1 : Fin 2) * 47 + 47; omega

/-- After the last point the result array holds the whole product h · W, entry by entry. -/
theorem final (c : Dev nD) :
    (dat4 V c).arrAt 2 cfg4.N = Formula.outProjAt (V c main_v71) (V c main_v16) :=
  (dat4 V c).arrAt_eq_of_cover 2 (Formula.outProjAt (V c main_v71) (V c main_v16))
    (fun t _ => flushed_eq V c t) covered

end Cert.KernelIdeal.OutProj

end
-- ==== Proof.LayerRegion1.lean ====
/-
  Layer region 1: what the combine kernel's grid leaves in its output array.

  The region walks the 100000 rows in 25 blocks of 4000. At block t it reads rows 4000·t … 4000·t + 3999 of the
  two feature arrays, the two whole [128,128] weight matrices and the whole [1,128] bias row, and writes the
  same rows of the output. Entry (p, q) of the block it writes is
      (((a · feat + b · (feat · W1)) + a · f0) + b · (f0 · W2)) + bias,      f0 = x0 · 0.1,
  read at row 4000·t + p and column q, each matrix product the sum over the 128 contracted columns. Every row lies
  in exactly the block r / 4000, so the output array ends holding that formula at every index.
-/
import proofs.«121407_j23794118820012_1_alg».proof.Proof.Gen.KernelIdeal.Frame
import proofs.«121407_j23794118820012_1_alg».proof.Proof.Formula
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## The block's arithmetic at an entry -/

/-- The two coefficients of this layer, 1 − β and β, as the extended reals their f32 words encode. -/
abbrev ca : EReal := Ideal.ofBits .f32 0x3E9D1BD0#32
abbrev cb : EReal := Ideal.ofBits .f32 0x3F317218#32

/-- The left operand's index of the [4000,128] × [128,128] product keeps the output's row … -/
theorem lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contracted coordinate as its column; -/
theorem lhs_col (i : S4000x128.Idx) (κ : dot_S4000x128_S128x128_S4000x128_1_0_0_1_n_n.contr.Idx) :
    (dot_S4000x128_S128x128_S4000x128_1_0_0_1_n_n.lhsIdx i κ 1).val = (κ ⟨0, by decide⟩).val :=
  dot_S4000x128_S128x128_S4000x128_1_0_0_1_n_n.lhsIdx_val_of_single rfl i κ
/-- the right operand's index takes the contracted coordinate as its row … -/
theorem rhs_row (i : S4000x128.Idx) (κ : dot_S4000x128_S128x128_S4000x128_1_0_0_1_n_n.contr.Idx) :
    (dot_S4000x128_S128x128_S4000x128_1_0_0_1_n_n.rhsIdx i κ 0).val = (κ ⟨0, by decide⟩).val :=
  dot_S4000x128_S128x128_S4000x128_1_0_0_1_n_n.rhsIdx_val_of_single rfl i κ
/-- … and keeps the output's column. -/
theorem rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of a [4000,128] × [128,128] product accumulated into zero: row p of the left factor against
    column q of the right, summed over the 128 contracted coordinates. -/
theorem prod_apply {φ₁ φ₂ : FTy} (l : FVec Ideal S4000x128 φ₁) (r : FVec Ideal S128x128 φ₂) (p : Fin 4000) (q : Fin 128) :
    matmul (F := Ideal) dot_S4000x128_S128x128_S4000x128_1_0_0_1_n_n none l r (constant (F := Ideal) S4000x128 .f32 0x00000000#32) (ix2 p q)
      = ∑ k : Fin 128, (l (ix2 p k) : EReal) * (r (ix2 k q) : EReal) := by
  show FloatOps.matmul dot_S4000x128_S128x128_S4000x128_1_0_0_1_n_n none l r (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the 4000 rows reads the row at the entry's column. -/
theorem bias_apply (v : Vec Ideal S1x128 .f32) (p : Fin 4000) (q : Fin 128) :
    broadcastTo S4000x128 v broadcasts_S1x128_S4000x128 (ix2 p q) = v (ix2 0 q) := by
  refine broadcastTo_apply v broadcasts_S1x128_S4000x128 (ix2 p q) (ix2 0 q) fun a => ?_
  match a with
  | ⟨0, _⟩ => rfl
  | ⟨1, _⟩ => rfl

/-- THE BLOCK AT AN ENTRY: what the body stores at (p, q), from the five blocks it loaded. -/
theorem pay_apply (v0 v2 : Vec Ideal S4000x128 .f32) (v8 v10 : Vec Ideal S128x128 .f32) (v25 : Vec Ideal S1x128 .f32) (p : Fin 4000) (q : Fin 128) :
    k1_pay1 (F := Ideal) v0 v2 v8 v10 v25 (ix2 p q)
      = (((ca * (v0 (ix2 p q) : EReal) + cb * ∑ k : Fin 128, (v0 (ix2 p k) : EReal) * (v8 (ix2 k q) : EReal)) + ca * ((v2 (ix2 p q) : EReal) * Formula.tenth))
          + cb * ∑ k : Fin 128, ((v2 (ix2 p k) : EReal) * Formula.tenth) * (v10 (ix2 k q) : EReal)) + (v25 (ix2 0 q) : EReal) := by
  unfold k1_pay1
  simp only [shapeCast_self]
  simp only [addf_apply, mulf_apply, broadcast_apply, prod_apply, truncf_apply, Ideal.ofBits_def]
  rw [bias_apply v25 p q]
  rfl

/-! ## The arrays the region finds, and the blocks the body loads from them -/

variable (V : (c : Dev nD) → (b : Ref sig .tc) → Buf (Elt Ideal) ((c : Thread nD τ).loc b))

/-- The layer's input features, the initial features x0, the two weight matrices and the bias row, as the region
    finds them: functions of an index into the extended reals. -/
abbrev feat (c : Dev nD) : S100000x128.Idx → EReal := V c main_v33
abbrev x0 (c : Dev nD) : S100000x128.Idx → EReal := V c main_v17
abbrev w1 (c : Dev nD) : S128x128.Idx → EReal := V c main_arg5
abbrev w2 (c : Dev nD) : S128x128.Idx → EReal := V c main_arg6
abbrev bias (c : Dev nD) : S1x128.Idx → EReal := V c main_v34

theorem hz : (![0, 0] : Fin 2 → Nat) = fun _ => 0 := funext fun a => by fin_cases a <;> rfl

/-- The printed index maps, decided once over the 25 grid points: the two feature windows and the output sit at
    block (t, 0); the weights and the bias row at block (0, 0). -/
theorem idx_facts : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t of the layer's input features is row 4000·t + p of the array. -/
theorem feat_blk (c : Dev nD) (t : Fin cfg1.N) (p : Fin 4000) (k : Fin 128) (r : Fin 100000) (hr : r.val = t.val * 4000 + p.val) :
    (iblk1 V c 0 t : Vec Ideal S4000x128 .f32) (ix2 p k) = feat V c (ix2 r k) := by
  obtain ⟨_, e0, e1, -⟩ := idx_facts t
  unfold iblk1
  rw [View.read_apply]
  show V c main_v33 (((cfg1.win 0).blk t).view.emb (ix2 p k)) = V c main_v33 (ix2 r k)
  refine congrArg (V c main_v33) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row p of block t of the initial features x0 is row 4000·t + p of the array. -/
theorem x0_blk (c : Dev nD) (t : Fin cfg1.N) (p : Fin 4000) (k : Fin 128) (r : Fin 100000) (hr : r.val = t.val * 4000 + p.val) :
    (iblk1 V c 1 t : Vec Ideal S4000x128 .f32) (ix2 p k) = x0 V c (ix2 r k) := by
  obtain ⟨_, _, _, e0, e1, -⟩ := idx_facts t
  unfold iblk1
  rw [View.read_apply]
  show V c main_v17 (((cfg1.win 1).blk t).view.emb (ix2 p k)) = V c main_v17 (ix2 r k)
  refine congrArg (V c main_v17) (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- The first weight matrix is loaded whole at every point. -/
theorem w1_blk (c : Dev nD) (t : Fin cfg1.N) (k q : Fin 128) :
    (iblk1 V c 2 t : Vec Ideal S128x128 .f32) (ix2 k q) = w1 V c (ix2 k q) := by
  obtain ⟨_, _, _, _, _, e0, e1, -⟩ := idx_facts t
  unfold iblk1
  rw [View.read_apply]
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight matrix is loaded whole at every point. -/
theorem w2_blk (c : Dev nD) (t : Fin cfg1.N) (k q : Fin 128) :
    (iblk1 V c 3 t : Vec Ideal S128x128 .f32) (ix2 k q) = w2 V c (ix2 k q) := by
  obtain ⟨_, _, _, _, _, _, _, e0, e1, -⟩ := idx_facts t
  unfold iblk1
  rw [View.read_apply]
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row is loaded whole at every point. -/
theorem bias_blk (c : Dev nD) (t : Fin cfg1.N) (q : Fin 128) :
    (iblk1 V c 4 t : Vec Ideal S1x128 .f32) (ix2 0 q) = bias V c (ix2 0 q) := by
  obtain ⟨_, _, _, _, _, _, _, _, _, e0, e1, -⟩ := idx_facts t
  unfold iblk1
  rw [View.read_apply]
  show V c main_v34 (((cfg1.win 4).blk t).view.emb (ix2 0 q)) = V c main_v34 (ix2 0 q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## What a point writes back, the cover, the array after the region -/

/-- The layer's output as one function of the arrays the region finds: the formula at every index. -/
abbrev G (c : Dev nD) : S100000x128.Idx → EReal :=
  Formula.layerAt (Ideal.ofBits .f32 0x3E9D1BD0#32) (Ideal.ofBits .f32 0x3F317218#32) (feat V c) (x0 V c) (w1 V c) (w2 V c) (bias V c)

/-- Entry (p, q) of what the body stores at point t is the formula at row 4000·t + p, column q: the loaded blocks
    are those rows of the features, the whole weights and the whole bias row, and the block's arithmetic is the
    formula's, term by term. -/
theorem point_eq (c : Dev nD) (t : Fin cfg1.N) (p : Fin 4000) (q : Fin 128) (r : Fin 100000) (hr : r.val = t.val * 4000 + p.val) :
    k1_pay1 (F := Ideal) (iblk1 V c 0 t) (iblk1 V c 1 t) (iblk1 V c 2 t) (iblk1 V c 3 t) (iblk1 V c 4 t) (ix2 p q) = G V c (ix2 r q) := by
  refine (pay_apply (iblk1 V c 0 t) (iblk1 V c 1 t) (iblk1 V c 2 t) (iblk1 V c 3 t) (iblk1 V c 4 t) p q).trans ?_
  show _ = (((ca * feat V c (ix2 r q) + cb * ∑ k : Fin 128, feat V c (ix2 r k) * w1 V c (ix2 k q))
      + ca * (x0 V c (ix2 r q) * Formula.tenth))
      + cb * ∑ k : Fin 128, (x0 V c (ix2 r k) * Formula.tenth) * w2 V c (ix2 k q)) + bias V c (ix2 0 q)
  rw [feat_blk V c t p q r hr, x0_blk V c t p q r hr, bias_blk V c t q]
  refine congrArg₂ (· + ·) (congrArg₂ (· + ·) (congrArg₂ (· + ·) (congrArg₂ (· + ·) rfl (congrArg (cb * ·) ?_)) rfl) (congrArg (cb * ·) ?_)) rfl
  · exact Finset.sum_congr rfl fun k _ => by rw [feat_blk V c t p k r hr, w1_blk V c t k q]
  · exact Finset.sum_congr rfl fun k _ => by rw [x0_blk V c t p k r hr, w2_blk V c t k q]

/-- WHAT POINT t WRITES BACK is block t of the formula. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨hlt, _, _, _, _, _, _, _, _, _, _, e0, e1⟩ := idx_facts t
  refine funext fun (j : S4000x128.Idx) => ?_
  show k1_pay1 (F := Ideal) (iblk1 V c 0 t) (iblk1 V c 1 t) (iblk1 V c 2 t) (iblk1 V c 3 t) (iblk1 V c 4 t) j = G V c (((cfg1.win 5).blk t).view.emb j)
  obtain ⟨p, q, rfl⟩ : ∃ (p : Fin 4000) (q : Fin 128), j = ix2 p q := ⟨j 0, j 1, eq_ix2 j⟩
  have hp : p.val < 4000 := p.isLt
  have he : ((cfg1.win 5).blk t).view.emb (ix2 p q) = ix2 (⟨t.val * 4000 + p.val, by omega⟩ : Fin 100000) q := funext fun a => Fin.ext (by
    match a with
    | ⟨0, _⟩ => show win1_5.index t (0 : Fin 2) * 4000 + 1 * p.val = t.val * 4000 + p.val; omega
    | ⟨1, _⟩ => show win1_5.index t (1 : Fin 2) * 128 + 1 * q.val = q.val; omega)
  exact (point_eq V c t p q _ rfl).trans (congrArg (G V c) he.symm)

/-- An index of the array is in point t's block iff, on each axis, its coordinate is in the block's range. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v35).slice (win1_5.rect t)).set ↔ _
  rw [View.set_slice_whole, Rect.mem_set_unit]
  exact Iff.rfl

/-- THE COVER: row r lies in the block of point r / 4000, and that point writes its block back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show (i 0).val / 4000 < 25; omega⟩, rfl⟩
  obtain ⟨_, _, _, _, _, _, _, _, _, _, _, e0, e1⟩ := idx_facts t
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE ARRAY AFTER THE REGION: the layer's formula of the arrays the region found, at every index. -/
theorem final (c : Dev nD) : (dat1 V c).arrAt 5 cfg1.N = Formula.layerAt (Ideal.ofBits .f32 0x3E9D1BD0#32) (Ideal.ofBits .f32 0x3F317218#32) (V c main_v33) (V c main_v17) (V c main_arg5) (V c main_arg6) (V c main_v34) :=
  (dat1 V c).arrAt_eq_of_cover 5 (G V c) (fun t _ => flushed_eq V c t) cover

end Cert.KernelIdeal.Layer1

end
-- ==== Proof.LayerRegion2.lean ====
/-
  Layer region 2: what the combine kernel's grid leaves in its output array.

  The region walks the 100000 rows in 25 blocks of 4000. At block t it reads rows 4000·t … 4000·t + 3999 of the
  two feature arrays, the two whole [128,128] weight matrices and the whole [1,128] bias row, and writes the
  same rows of the output. Entry (p, q) of the block it writes is
      (((a · feat + b · (feat · W1)) + a · f0) + b · (f0 · W2)) + bias,      f0 = x0 · 0.1,
  read at row 4000·t + p and column q, each matrix product the sum over the 128 contracted columns. Every row lies
  in exactly the block r / 4000, so the output array ends holding that formula at every index.
-/
import proofs.«121407_j23794118820012_1_alg».proof.Proof.Gen.KernelIdeal.Frame
import proofs.«121407_j23794118820012_1_alg».proof.Proof.Formula
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## The block's arithmetic at an entry -/

/-- The two coefficients of this layer, 1 − β and β, as the extended reals their f32 words encode. -/
abbrev ca : EReal := Ideal.ofBits .f32 0x3F183370#32
abbrev cb : EReal := Ideal.ofBits .f32 0x3ECF991F#32

/-- The left operand's index of the [4000,128] × [128,128] product keeps the output's row … -/
theorem lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contracted coordinate as its column; -/
theorem lhs_col (i : S4000x128.Idx) (κ : dot_S4000x128_S128x128_S4000x128_1_0_0_1_n_n.contr.Idx) :
    (dot_S4000x128_S128x128_S4000x128_1_0_0_1_n_n.lhsIdx i κ 1).val = (κ ⟨0, by decide⟩).val :=
  dot_S4000x128_S128x128_S4000x128_1_0_0_1_n_n.lhsIdx_val_of_single rfl i κ
/-- the right operand's index takes the contracted coordinate as its row … -/
theorem rhs_row (i : S4000x128.Idx) (κ : dot_S4000x128_S128x128_S4000x128_1_0_0_1_n_n.contr.Idx) :
    (dot_S4000x128_S128x128_S4000x128_1_0_0_1_n_n.rhsIdx i κ 0).val = (κ ⟨0, by decide⟩).val :=
  dot_S4000x128_S128x128_S4000x128_1_0_0_1_n_n.rhsIdx_val_of_single rfl i κ
/-- … and keeps the output's column. -/
theorem rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of a [4000,128] × [128,128] product accumulated into zero: row p of the left factor against
    column q of the right, summed over the 128 contracted coordinates. -/
theorem prod_apply {φ₁ φ₂ : FTy} (l : FVec Ideal S4000x128 φ₁) (r : FVec Ideal S128x128 φ₂) (p : Fin 4000) (q : Fin 128) :
    matmul (F := Ideal) dot_S4000x128_S128x128_S4000x128_1_0_0_1_n_n none l r (constant (F := Ideal) S4000x128 .f32 0x00000000#32) (ix2 p q)
      = ∑ k : Fin 128, (l (ix2 p k) : EReal) * (r (ix2 k q) : EReal) := by
  show FloatOps.matmul dot_S4000x128_S128x128_S4000x128_1_0_0_1_n_n none l r (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the 4000 rows reads the row at the entry's column. -/
theorem bias_apply (v : Vec Ideal S1x128 .f32) (p : Fin 4000) (q : Fin 128) :
    broadcastTo S4000x128 v broadcasts_S1x128_S4000x128 (ix2 p q) = v (ix2 0 q) := by
  refine broadcastTo_apply v broadcasts_S1x128_S4000x128 (ix2 p q) (ix2 0 q) fun a => ?_
  match a with
  | ⟨0, _⟩ => rfl
  | ⟨1, _⟩ => rfl

/-- THE BLOCK AT AN ENTRY: what the body stores at (p, q), from the five blocks it loaded. -/
theorem pay_apply (v0 v2 : Vec Ideal S4000x128 .f32) (v8 v10 : Vec Ideal S128x128 .f32) (v25 : Vec Ideal S1x128 .f32) (p : Fin 4000) (q : Fin 128) :
    k2_pay1 (F := Ideal) v0 v2 v8 v10 v25 (ix2 p q)
      = (((ca * (v0 (ix2 p q) : EReal) + cb * ∑ k : Fin 128, (v0 (ix2 p k) : EReal) * (v8 (ix2 k q) : EReal)) + ca * ((v2 (ix2 p q) : EReal) * Formula.tenth))
          + cb * ∑ k : Fin 128, ((v2 (ix2 p k) : EReal) * Formula.tenth) * (v10 (ix2 k q) : EReal)) + (v25 (ix2 0 q) : EReal) := by
  unfold k2_pay1
  simp only [shapeCast_self]
  simp only [addf_apply, mulf_apply, broadcast_apply, prod_apply, truncf_apply, Ideal.ofBits_def]
  rw [bias_apply v25 p q]
  rfl

/-! ## The arrays the region finds, and the blocks the body loads from them -/

variable (V : (c : Dev nD) → (b : Ref sig .tc) → Buf (Elt Ideal) ((c : Thread nD τ).loc b))

/-- The layer's input features, the initial features x0, the two weight matrices and the bias row, as the region
    finds them: functions of an index into the extended reals. -/
abbrev feat (c : Dev nD) : S100000x128.Idx → EReal := V c main_v51
abbrev x0 (c : Dev nD) : S100000x128.Idx → EReal := V c main_v17
abbrev w1 (c : Dev nD) : S128x128.Idx → EReal := V c main_arg8
abbrev w2 (c : Dev nD) : S128x128.Idx → EReal := V c main_arg9
abbrev bias (c : Dev nD) : S1x128.Idx → EReal := V c main_v52

theorem hz : (![0, 0] : Fin 2 → Nat) = fun _ => 0 := funext fun a => by fin_cases a <;> rfl

/-- The printed index maps, decided once over the 25 grid points: the two feature windows and the output sit at
    block (t, 0); the weights and the bias row at block (0, 0). -/
theorem idx_facts : ∀ t : Fin cfg2.N, t.val < 25
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t of the layer's input features is row 4000·t + p of the array. -/
theorem feat_blk (c : Dev nD) (t : Fin cfg2.N) (p : Fin 4000) (k : Fin 128) (r : Fin 100000) (hr : r.val = t.val * 4000 + p.val) :
    (iblk2 V c 0 t : Vec Ideal S4000x128 .f32) (ix2 p k) = feat V c (ix2 r k) := by
  obtain ⟨_, e0, e1, -⟩ := idx_facts t
  unfold iblk2
  rw [View.read_apply]
  show V c main_v51 (((cfg2.win 0).blk t).view.emb (ix2 p k)) = V c main_v51 (ix2 r k)
  refine congrArg (V c main_v51) (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row p of block t of the initial features x0 is row 4000·t + p of the array. -/
theorem x0_blk (c : Dev nD) (t : Fin cfg2.N) (p : Fin 4000) (k : Fin 128) (r : Fin 100000) (hr : r.val = t.val * 4000 + p.val) :
    (iblk2 V c 1 t : Vec Ideal S4000x128 .f32) (ix2 p k) = x0 V c (ix2 r k) := by
  obtain ⟨_, _, _, e0, e1, -⟩ := idx_facts t
  unfold iblk2
  rw [View.read_apply]
  show V c main_v17 (((cfg2.win 1).blk t).view.emb (ix2 p k)) = V c main_v17 (ix2 r k)
  refine congrArg (V c main_v17) (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- The first weight matrix is loaded whole at every point. -/
theorem w1_blk (c : Dev nD) (t : Fin cfg2.N) (k q : Fin 128) :
    (iblk2 V c 2 t : Vec Ideal S128x128 .f32) (ix2 k q) = w1 V c (ix2 k q) := by
  obtain ⟨_, _, _, _, _, e0, e1, -⟩ := idx_facts t
  unfold iblk2
  rw [View.read_apply]
  show V c main_arg8 (((cfg2.win 2).blk t).view.emb (ix2 k q)) = V c main_arg8 (ix2 k q)
  refine congrArg (V c main_arg8) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The second weight matrix is loaded whole at every point. -/
theorem w2_blk (c : Dev nD) (t : Fin cfg2.N) (k q : Fin 128) :
    (iblk2 V c 3 t : Vec Ideal S128x128 .f32) (ix2 k q) = w2 V c (ix2 k q) := by
  obtain ⟨_, _, _, _, _, _, _, e0, e1, -⟩ := idx_facts t
  unfold iblk2
  rw [View.read_apply]
  show V c main_arg9 (((cfg2.win 3).blk t).view.emb (ix2 k q)) = V c main_arg9 (ix2 k q)
  refine congrArg (V c main_arg9) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias row is loaded whole at every point. -/
theorem bias_blk (c : Dev nD) (t : Fin cfg2.N) (q : Fin 128) :
    (iblk2 V c 4 t : Vec Ideal S1x128 .f32) (ix2 0 q) = bias V c (ix2 0 q) := by
  obtain ⟨_, _, _, _, _, _, _, _, _, e0, e1, -⟩ := idx_facts t
  unfold iblk2
  rw [View.read_apply]
  show V c main_v52 (((cfg2.win 4).blk t).view.emb (ix2 0 q)) = V c main_v52 (ix2 0 q)
  refine congrArg (V c main_v52) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-! ## What a point writes back, the cover, the array after the region -/

/-- The layer's output as one function of the arrays the region finds: the formula at every index. -/
abbrev G (c : Dev nD) : S100000x128.Idx → EReal :=
  Formula.layerAt (Ideal.ofBits .f32 0x3F183370#32) (Ideal.ofBits .f32 0x3ECF991F#32) (feat V c) (x0 V c) (w1 V c) (w2 V c) (bias V c)

/-- Entry (p, q) of what the body stores at point t is the formula at row 4000·t + p, column q: the loaded blocks
    are those rows of the features, the whole weights and the whole bias row, and the block's arithmetic is the
    formula's, term by term. -/
theorem point_eq (c : Dev nD) (t : Fin cfg2.N) (p : Fin 4000) (q : Fin 128) (r : Fin 100000) (hr : r.val = t.val * 4000 + p.val) :
    k2_pay1 (F := Ideal) (iblk2 V c 0 t) (iblk2 V c 1 t) (iblk2 V c 2 t) (iblk2 V c 3 t) (iblk2 V c 4 t) (ix2 p q) = G V c (ix2 r q) := by
  refine (pay_apply (iblk2 V c 0 t) (iblk2 V c 1 t) (iblk2 V c 2 t) (iblk2 V c 3 t) (iblk2 V c 4 t) p q).trans ?_
  show _ = (((ca * feat V c (ix2 r q) + cb * ∑ k : Fin 128, feat V c (ix2 r k) * w1 V c (ix2 k q))
      + ca * (x0 V c (ix2 r q) * Formula.tenth))
      + cb * ∑ k : Fin 128, (x0 V c (ix2 r k) * Formula.tenth) * w2 V c (ix2 k q)) + bias V c (ix2 0 q)
  rw [feat_blk V c t p q r hr, x0_blk V c t p q r hr, bias_blk V c t q]
  refine congrArg₂ (· + ·) (congrArg₂ (· + ·) (congrArg₂ (· + ·) (congrArg₂ (· + ·) rfl (congrArg (cb * ·) ?_)) rfl) (congrArg (cb * ·) ?_)) rfl
  · exact Finset.sum_congr rfl fun k _ => by rw [feat_blk V c t p k r hr, w1_blk V c t k q]
  · exact Finset.sum_congr rfl fun k _ => by rw [x0_blk V c t p k r hr, w2_blk V c t k q]

/-- WHAT POINT t WRITES BACK is block t of the formula. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  obtain ⟨hlt, _, _, _, _, _, _, _, _, _, _, e0, e1⟩ := idx_facts t
  refine funext fun (j : S4000x128.Idx) => ?_
  show k2_pay1 (F := Ideal) (iblk2 V c 0 t) (iblk2 V c 1 t) (iblk2 V c 2 t) (iblk2 V c 3 t) (iblk2 V c 4 t) j = G V c (((cfg2.win 5).blk t).view.emb j)
  obtain ⟨p, q, rfl⟩ : ∃ (p : Fin 4000) (q : Fin 128), j = ix2 p q := ⟨j 0, j 1, eq_ix2 j⟩
  have hp : p.val < 4000 := p.isLt
  have he : ((cfg2.win 5).blk t).view.emb (ix2 p q) = ix2 (⟨t.val * 4000 + p.val, by omega⟩ : Fin 100000) q := funext fun a => Fin.ext (by
    match a with
    | ⟨0, _⟩ => show win2_5.index t (0 : Fin 2) * 4000 + 1 * p.val = t.val * 4000 + p.val; omega
    | ⟨1, _⟩ => show win2_5.index t (1 : Fin 2) * 128 + 1 * q.val = q.val; omega)
  exact (point_eq V c t p q _ rfl).trans (congrArg (G V c) he.symm)

/-- An index of the array is in point t's block iff, on each axis, its coordinate is in the block's range. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v53).slice (win2_5.rect t)).set ↔ _
  rw [View.set_slice_whole, Rect.mem_set_unit]
  exact Iff.rfl

/-- THE COVER: row r lies in the block of point r / 4000, and that point writes its block back. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by show (i 0).val / 4000 < 25; omega⟩, rfl⟩
  obtain ⟨_, _, _, _, _, _, _, _, _, _, _, e0, e1⟩ := idx_facts t
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE ARRAY AFTER THE REGION: the layer's formula of the arrays the region found, at every index. -/
theorem final (c : Dev nD) : (dat2 V c).arrAt 5 cfg2.N = Formula.layerAt (Ideal.ofBits .f32 0x3F183370#32) (Ideal.ofBits .f32 0x3ECF991F#32) (V c main_v51) (V c main_v17) (V c main_arg8) (V c main_arg9) (V c main_v52) :=
  (dat2 V c).arrAt_eq_of_cover 5 (G V c) (fun t _ => flushed_eq V c t) cover

end Cert.KernelIdeal.Layer2

end
-- ==== Proof.LayerRegion3.lean ====
/-
  Layer region 3: what the combine kernel's grid leaves in its output array.

  The region walks the 100000 rows in 25 blocks of 4000. At block t it reads rows 4000·t … 4000·t + 3999 of the
  two feature arrays, the two whole [128,128] weight matrices and the whole [1,128] bias row, and writes the
  same rows of the output. Entry (p, q) of the block it writes is
      (((a · feat + b · (feat · W1)) + a · f0) + b · (f0 · W2)) + bias,      f0 = x0 · 0.1,
  read at row 4000·t + p and column q, each matrix product the sum over the 128 contracted columns. Every row lies
  in exactly the block r / 4000, so the output array ends holding that formula at every index.
-/
import proofs.«121407_j23794118820012_1_alg».proof.Proof.Gen.KernelIdeal.Frame
import proofs.«121407_j23794118820012_1_alg».proof.Proof.Formula
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## The block's arithmetic at an entry -/

/-- The two coefficients of this layer, 1 − β and β, as the extended reals their f32 words encode. -/
abbrev ca : EReal := Ideal.ofBits .f32 0x3F365A78#32
abbrev cb : EReal := Ideal.ofBits .f32 0x3E934B11#32

/-- The left operand's index of the [4000,128] × [128,128] product keeps the output's row … -/
theorem lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contracted coordinate as its column; -/
theorem lhs_col (i : S4000x128.Idx) (κ : dot_S4000x128_S128x128_S4000x128_1_0_0_1_n_n.contr.Idx) :
    (dot_S4000x128_S128x128_S4000x128_1_0_0_1_n_n.lhsIdx i κ 1).val = (κ ⟨0, by decide⟩).val :=
  dot_S4000x128_S128x128_S4000x128_1_0_0_1_n_n.lhsIdx_val_of_single rfl i κ
/-- the right operand's index takes the contracted coordinate as its row … -/
theorem rhs_row (i : S4000x128.Idx) (κ : dot_S4000x128_S128x128_S4000x128_1_0_0_1_n_n.contr.Idx) :
    (dot_S4000x128_S128x128_S4000x128_1_0_0_1_n_n.rhsIdx i κ 0).val = (κ ⟨0, by decide⟩).val :=
  dot_S4000x128_S128x128_S4000x128_1_0_0_1_n_n.rhsIdx_val_of_single rfl i κ
/-- … and keeps the output's column. -/
theorem rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of a [4000,128] × [128,128] product accumulated into zero: row p of the left factor against
    column q of the right, summed over the 128 contracted coordinates. -/
theorem prod_apply {φ₁ φ₂ : FTy} (l : FVec Ideal S4000x128 φ₁) (r : FVec Ideal S128x128 φ₂) (p : Fin 4000) (q : Fin 128) :
    matmul (F := Ideal) dot_S4000x128_S128x128_S4000x128_1_0_0_1_n_n none l r (constant (F := Ideal) S4000x128 .f32 0x00000000#32) (ix2 p q)
      = ∑ k : Fin 128, (l (ix2 p k) : EReal) * (r (ix2 k q) : EReal) := by
  show FloatOps.matmul dot_S4000x128_S128x128_S4000x128_1_0_0_1_n_n none l r (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the 4000 rows reads the row at the entry's column. -/
theorem bias_apply (v : Vec Ideal S1x128 .f32) (p : Fin 4000) (q : Fin 128) :
    broadcastTo S4000x128 v broadcasts_S1x128_S4000x128 (ix2 p q) = v (ix2 0 q) := by
  refine broadcastTo_apply v broadcasts_S1x128_S4000x128 (ix2 p q) (ix2 0 q) fun a => ?_
  match a with
  | ⟨0, _⟩ => rfl
  | ⟨1, _⟩ => rfl

/-- THE BLOCK AT AN ENTRY: what the body stores at (p, q), from the five blocks it loaded. -/
theorem pay_apply (v0 v2 : Vec Ideal S4000x128 .f32) (v8 v10 : Vec Ideal S128x128 .f32) (v25 : Vec Ideal S1x128 .f32) (p : Fin 4000) (q : Fin 128) :
    k3_pay1 (F := Ideal) v0 v2 v8 v10 v25 (ix2 p q)
      = (((ca * (v0 (ix2 p q) : EReal) + cb * ∑ k : Fin 128, (v0 (ix2 p k) : EReal) * (v8 (ix2 k q) : EReal)) + ca * ((v2 (ix2 p q) : EReal) * Formula.tenth))
          + cb * ∑ k : Fin 128, ((v2 (ix2 p k) : EReal) * Formula.tenth) * (v10 (ix2 k q) : EReal)) + (v25 (ix2 0 q) : EReal) := by
  unfold k3_pay1
  simp only [shapeCast_self]
  simp only [addf_apply, mulf_apply, broadcast_apply, prod_apply, truncf_apply, Ideal.ofBits_def]
  rw [bias_apply v25 p q]
  rfl

/-! ## The arrays the region finds, and the blocks the body loads from them -/

variable (V : (c : Dev nD) → (b : Ref sig .tc) → Buf (Elt Ideal) ((c : Thread nD τ).loc b))

/-- The layer's input features, the initial features x0, the two weight matrices and the bias row, as the region
    finds them: functions of an index into the extended reals. -/
abbrev feat (c : Dev nD) : S100000x128.Idx → EReal := V c main_v69
abbrev x0 (c : Dev nD) : S100000x128.Idx → EReal := V c main_v17
abbrev w1 (c : Dev nD) : S128x128.Idx → EReal := V c main_arg11
abbrev w2 (c : Dev nD) : S128x128.Idx → EReal := V c main_arg12
abbrev bias (c : Dev nD) : S1x128.Idx → EReal := V c main_v70

theorem hz : (![0, 0] : Fin 2 → Nat) = fun _ => 0 := funext fun a => by fin_cases a <;> rfl

/-- The printed index maps, decided once over the 25 grid points: the two feature windows and the output sit at
    block (t, 0); the weights and the bias row at block (0, 0). -/
theorem idx_facts : ∀ t : Fin cfg3.N, t.val < 25
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t of the layer's input features is row 4000·t + p of the array. -/
theorem feat_blk (c : Dev nD) (t : Fin cfg3.N) (p : Fin 4000) (k : Fin 128) (r : Fin 100000) (hr : r.val = t.val * 4000 + p.val) :
    (iblk3 V c 0 t : Vec Ideal S4000x128 .f32) (ix2 p k) = feat V c (ix2 r k) := by
  obtain ⟨_, e0, e1, -⟩ := idx_facts t
  unfold iblk3
  rw [View.read_apply]
  show V c main_v69 (((cfg3.win 0).blk t).view.emb (ix2 p k)) = V c main_v69 (ix2 r k)
  refine congrArg (V c main_v69) (funext fun a => Fin.ext ?_)
  match a with
  | ⟨0, _⟩ => show win3_0.index t (0 : Fin 2) * 4000 + 1 * p.val = r.val; omega
  | ⟨1, _⟩ => show win3_0.index t (1 : Fin 2) * 128 + 1 * k.val = k.val; omega

/-- Row p of block t of the initial features x0 is row 4000·t + p of the array. -/
theorem x0_blk (c : Dev nD) (t : Fin cfg3.N) (p : Fin 4000) (k : Fin 128) (r : Fin 100000) (hr : r.val = t.val * 4000 + p.val) :
    (iblk3 V c 1 t : Vec Ideal S4000x128 .f32) (ix2 p k) = x0 V c (ix2 r k) := by
  obtain ⟨_, _, _, e0, e1, -⟩ := idx_facts t
  unfold iblk3
  rw [View.read_apply]
  show V c main_v17 (((cfg3.win 1).blk t).view.emb (ix2 p k)) = V c main_v17 (ix2 r k)
  refine congrArg (V c main_v17) (funext fun a => Fin.ext ?_)
  match a with
  | ⟨0, _⟩ => show win3_1.index t (0 : Fin 2) * 4000 + 1 * p.val = r.val; omega
  | ⟨1, _⟩ => show win3_1.index t (1 : Fin 2) * 128 + 1 * k.val = k.val; omega

/-- The first weight matrix is loaded whole at every point. -/
theorem w1_blk (c : Dev nD) (t : Fin cfg3.N) (k q : Fin 128) :
    (iblk3 V c 2 t : Vec Ideal S128x128 .f32) (ix2 k q) = w1 V c (ix2 k q) := by
  obtain ⟨_, _, _, _, _, e0, e1, -⟩ := idx_facts t
  unfold iblk3
  rw [View.read_apply]
  show V c main_arg11 (((cfg3.win 2).blk t).view.emb (ix2 k q)) = V c main_arg11 (ix2 k q)
  refine congrArg (V c main_arg11) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The second weight matrix is loaded whole at every point. -/
theorem w2_blk (c : Dev nD) (t : Fin cfg3.N) (k q : Fin 128) :
    (iblk3 V c 3 t : Vec Ideal S128x128 .f32) (ix2 k q) = w2 V c (ix2 k q) := by
  obtain ⟨_, _, _, _, _, _, _, e0, e1, -⟩ := idx_facts t
  unfold iblk3
  rw [View.read_apply]
  show V c main_arg12 (((cfg3.win 3).blk t).view.emb (ix2 k q)) = V c main_arg12 (ix2 k q)
  refine congrArg (V c main_arg12) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias row is loaded whole at every point. -/
theorem bias_blk (c : Dev nD) (t : Fin cfg3.N) (q : Fin 128) :
    (iblk3 V c 4 t : Vec Ideal S1x128 .f32) (ix2 0 q) = bias V c (ix2 0 q) := by
  obtain ⟨_, _, _, _, _, _, _, _, _, e0, e1, -⟩ := idx_facts t
  unfold iblk3
  rw [View.read_apply]
  show V c main_v70 (((cfg3.win 4).blk t).view.emb (ix2 0 q)) = V c main_v70 (ix2 0 q)
  refine congrArg (V c main_v70) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-! ## What a point writes back, the cover, the array after the region -/

/-- The layer's output as one function of the arrays the region finds: the formula at every index. -/
abbrev G (c : Dev nD) : S100000x128.Idx → EReal :=
  Formula.layerAt (Ideal.ofBits .f32 0x3F365A78#32) (Ideal.ofBits .f32 0x3E934B11#32) (feat V c) (x0 V c) (w1 V c) (w2 V c) (bias V c)

/-- Entry (p, q) of what the body stores at point t is the formula at row 4000·t + p, column q: the loaded blocks
    are those rows of the features, the whole weights and the whole bias row, and the block's arithmetic is the
    formula's, term by term. -/
theorem point_eq (c : Dev nD) (t : Fin cfg3.N) (p : Fin 4000) (q : Fin 128) (r : Fin 100000) (hr : r.val = t.val * 4000 + p.val) :
    k3_pay1 (F := Ideal) (iblk3 V c 0 t) (iblk3 V c 1 t) (iblk3 V c 2 t) (iblk3 V c 3 t) (iblk3 V c 4 t) (ix2 p q) = G V c (ix2 r q) := by
  refine (pay_apply (iblk3 V c 0 t) (iblk3 V c 1 t) (iblk3 V c 2 t) (iblk3 V c 3 t) (iblk3 V c 4 t) p q).trans ?_
  show _ = (((ca * feat V c (ix2 r q) + cb * ∑ k : Fin 128, feat V c (ix2 r k) * w1 V c (ix2 k q))
      + ca * (x0 V c (ix2 r q) * Formula.tenth))
      + cb * ∑ k : Fin 128, (x0 V c (ix2 r k) * Formula.tenth) * w2 V c (ix2 k q)) + bias V c (ix2 0 q)
  rw [feat_blk V c t p q r hr, x0_blk V c t p q r hr, bias_blk V c t q]
  refine congrArg₂ (· + ·) (congrArg₂ (· + ·) (congrArg₂ (· + ·) (congrArg₂ (· + ·) rfl (congrArg (cb * ·) ?_)) rfl) (congrArg (cb * ·) ?_)) rfl
  · exact Finset.sum_congr rfl fun k _ => by rw [feat_blk V c t p k r hr, w1_blk V c t k q]
  · exact Finset.sum_congr rfl fun k _ => by rw [x0_blk V c t p k r hr, w2_blk V c t k q]

/-- WHAT POINT t WRITES BACK is block t of the formula. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S4000x128) hz, View.ld_unit_zero (S := S128x128) hz, View.ld_unit_zero (S := S1x128) hz]
  obtain ⟨hlt, _, _, _, _, _, _, _, _, _, _, e0, e1⟩ := idx_facts t
  refine funext fun (j : S4000x128.Idx) => ?_
  show k3_pay1 (F := Ideal) (iblk3 V c 0 t) (iblk3 V c 1 t) (iblk3 V c 2 t) (iblk3 V c 3 t) (iblk3 V c 4 t) j = G V c (((cfg3.win 5).blk t).view.emb j)
  obtain ⟨p, q, rfl⟩ : ∃ (p : Fin 4000) (q : Fin 128), j = ix2 p q := ⟨j 0, j 1, eq_ix2 j⟩
  have hp : p.val < 4000 := p.isLt
  have he : ((cfg3.win 5).blk t).view.emb (ix2 p q) = ix2 (⟨t.val * 4000 + p.val, by omega⟩ : Fin 100000) q := funext fun a => Fin.ext (by
    match a with
    | ⟨0, _⟩ => show win3_5.index t (0 : Fin 2) * 4000 + 1 * p.val = t.val * 4000 + p.val; omega
    | ⟨1, _⟩ => show win3_5.index t (1 : Fin 2) * 128 + 1 * q.val = q.val; omega)
  exact (point_eq V c t p q _ rfl).trans (congrArg (G V c) he.symm)

/-- An index of the array is in point t's block iff, on each axis, its coordinate is in the block's range. -/
theorem mem_blk (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v71).slice (win3_5.rect t)).set ↔ _
  rw [View.set_slice_whole, Rect.mem_set_unit]
  exact Iff.rfl

/-- THE COVER: row r lies in the block of point r / 4000, and that point writes its block back. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 4000 :=
    ⟨⟨(i 0).val / 4000, by show (i 0).val / 4000 < 25; omega⟩, rfl⟩
  obtain ⟨_, _, _, _, _, _, _, _, _, _, _, e0, e1⟩ := idx_facts t
  refine ⟨t, flush3_5 t, ?_⟩
  rw [mem_blk]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- THE ARRAY AFTER THE REGION: the layer's formula of the arrays the region found, at every index. -/
theorem final (c : Dev nD) : (dat3 V c).arrAt 5 cfg3.N = Formula.layerAt (Ideal.ofBits .f32 0x3F365A78#32) (Ideal.ofBits .f32 0x3E934B11#32) (V c main_v69) (V c main_v17) (V c main_arg11) (V c main_arg12) (V c main_v70) :=
  (dat3 V c).arrAt_eq_of_cover 5 (G V c) (fun t _ => flushed_eq V c t) cover

end Cert.KernelIdeal.Layer3

end
-- ==== Proof.Whole.lean ====
/-
  The whole computation as one function of the fourteen argument arrays.

    x0      = X · L1ᵀ
    h_1     = layer_1 (spread x0)  x0        with the literals 1 − β_1, β_1 and the weights (W1_1, W2_1, b_1)
    h_2     = layer_2 (spread h_1) x0        with 1 − β_2, β_2 and (W1_2, W2_2, b_2)
    h_3     = layer_3 (spread h_2) x0        with 1 − β_3, β_3 and (W1_3, W2_3, b_3)
    result  = h_3 · L2ᵀ

  where `spread h` is the neighbourhood sum of `h` normalised by the out-degree of each source and the in-degree of each
  target (Shared.lean) and the dense pieces are read entry by entry (Formula.lean). β_l = log (1/l + 1) enters only through
  its two rounded words per layer, which are the same words in both programs. The kernel program reaches this function region
  by region, the reference operation by operation; the certificate's result is that both end at it.
-/
import proofs.«121407_j23794118820012_1_alg».proof.Proof.Formula
import proofs.«121407_j23794118820012_1_alg».proof.Proof.Shared

noncomputable section

namespace Cert.KernelIdeal.Whole

open Idealize.ShloMosaic Cert.KernelIdeal Cert.KernelIdeal.Gen Cert.KernelIdeal.Formula Cert.KernelIdeal.Shared

/-- The projected features `x0 = X · L1ᵀ`, entry by entry. -/
def x0Of (X : (⟨S100000x256, .f32⟩ : BufTy).Contents (Elt Ideal)) (L1 : (⟨S128x256, .f32⟩ : BufTy).Contents (Elt Ideal)) : S100000x128.Idx → EReal :=
  inProjAt X (transpose S256x128 [1, 0] L1 transposes_S128x256_S256x128_1_0)

/-- One layer: the layer formula of the neighbourhood sum of the previous hidden state `h`, with the bias viewed as a row. -/
def layerOf (a b : EReal) (h x0 : S100000x128.Idx → EReal) (src dst : (⟨S600000, .i32⟩ : BufTy).Contents (Elt Ideal))
    (w1 w2 : (⟨S128x128, .f32⟩ : BufTy).Contents (Elt Ideal)) (bias : (⟨S128, .f32⟩ : BufTy).Contents (Elt Ideal)) : S100000x128.Idx → EReal :=
  layerAt a b (spread h (degScale src) (degScale dst) src dst) x0 w1 w2 (shapeCast S1x128 bias shapeCasts_S128_S1x128)

/-- The result array: three layers from the projected features, then the output projection. -/
def result (X : (⟨S100000x256, .f32⟩ : BufTy).Contents (Elt Ideal)) (src dst : (⟨S600000, .i32⟩ : BufTy).Contents (Elt Ideal))
    (L1 : (⟨S128x256, .f32⟩ : BufTy).Contents (Elt Ideal)) (L2 : (⟨S47x128, .f32⟩ : BufTy).Contents (Elt Ideal))
    (w11 w21 : (⟨S128x128, .f32⟩ : BufTy).Contents (Elt Ideal)) (b1 : (⟨S128, .f32⟩ : BufTy).Contents (Elt Ideal))
    (w12 w22 : (⟨S128x128, .f32⟩ : BufTy).Contents (Elt Ideal)) (b2 : (⟨S128, .f32⟩ : BufTy).Contents (Elt Ideal))
    (w13 w23 : (⟨S128x128, .f32⟩ : BufTy).Contents (Elt Ideal)) (b3 : (⟨S128, .f32⟩ : BufTy).Contents (Elt Ideal)) : S100000x47.Idx → EReal :=
  outProjAt
    (layerOf (Ideal.ofBits .f32 0x3F365A78#32) (Ideal.ofBits .f32 0x3E934B11#32)
      (layerOf (Ideal.ofBits .f32 0x3F183370#32) (Ideal.ofBits .f32 0x3ECF991F#32)
        (layerOf (Ideal.ofBits .f32 0x3E9D1BD0#32) (Ideal.ofBits .f32 0x3F317218#32)
          (x0Of X L1) (x0Of X L1) src dst w11 w21 b1)
        (x0Of X L1) src dst w12 w22 b2)
      (x0Of X L1) src dst w13 w23 b3)
    (transpose S128x47 [1, 0] L2 transposes_S47x128_S128x47_1_0)

end Cert.KernelIdeal.Whole

end
-- ==== Proof.KernelWhole.lean ====
/-
  The kernel program's result array is the specification.

  Walk the boundary contents W5 … W13 of the kernel program's run. Region 0 turns the node features and the transposed
  input weights into the projected features x0 (every block of 4000 rows of X against the whole weight matrix). Each
  layer region is entered with the neighbourhood sum of the previous hidden state, the projected features, its two weight
  matrices and its bias row, and leaves the layer formula of them, again 4000 rows at a time. Region 4 projects the last
  hidden state. Every buffer a region or a stretch reads is either what the previous region or stretch wrote or a buffer
  carried unchanged from where it was made; substituting one into the next gives `Whole.result` of the launch arguments.
-/
import proofs.«121407_j23794118820012_1_alg».proof.Proof.Gen.KernelIdeal.Frame
import proofs.«121407_j23794118820012_1_alg».proof.Proof.Carry
import proofs.«121407_j23794118820012_1_alg».proof.Proof.HostEntry
import proofs.«121407_j23794118820012_1_alg».proof.Proof.HostStretch
import proofs.«121407_j23794118820012_1_alg».proof.Proof.InProjRegion
import proofs.«121407_j23794118820012_1_alg».proof.Proof.OutProjRegion
import proofs.«121407_j23794118820012_1_alg».proof.Proof.LayerRegion1
import proofs.«121407_j23794118820012_1_alg».proof.Proof.LayerRegion2
import proofs.«121407_j23794118820012_1_alg».proof.Proof.LayerRegion3
import proofs.«121407_j23794118820012_1_alg».proof.Proof.Whole

set_option maxRecDepth 16384

noncomputable section

namespace Cert.KernelIdeal.KernelWhole

open Cert.KernelIdeal Cert.KernelIdeal.Gen Cert.KernelIdeal.Shared Cert.KernelIdeal.Formula Cert.KernelIdeal.Whole
open Idealize.ShloMosaic Idealize.ShloMosaic.TcCoe Idealize.SL.Sem

variable (m : (ℓ : Loc nD τ sig) → Buf (Elt Ideal) ℓ) (ρ : Dev nD → PrngReg)

/-! ## The intermediate arrays, as functions of the launch arguments -/

/-- The projected features. -/
abbrev X0 (c : Dev nD) : S100000x128.Idx → EReal := x0Of (m ((c : Thread nD τ).loc main_arg0)) (m ((c : Thread nD τ).loc main_arg3))
/-- The hidden state after layer 1. -/
abbrev H1 (c : Dev nD) : S100000x128.Idx → EReal :=
  layerOf (Ideal.ofBits .f32 0x3E9D1BD0#32) (Ideal.ofBits .f32 0x3F317218#32) (X0 m c) (X0 m c) (m ((c : Thread nD τ).loc main_arg1)) (m ((c : Thread nD τ).loc main_arg2)) (m ((c : Thread nD τ).loc main_arg5)) (m ((c : Thread nD τ).loc main_arg6)) (m ((c : Thread nD τ).loc main_arg7))
/-- The hidden state after layer 2. -/
abbrev H2 (c : Dev nD) : S100000x128.Idx → EReal :=
  layerOf (Ideal.ofBits .f32 0x3F183370#32) (Ideal.ofBits .f32 0x3ECF991F#32) (H1 m c) (X0 m c) (m ((c : Thread nD τ).loc main_arg1)) (m ((c : Thread nD τ).loc main_arg2)) (m ((c : Thread nD τ).loc main_arg8)) (m ((c : Thread nD τ).loc main_arg9)) (m ((c : Thread nD τ).loc main_arg10))
/-- The hidden state after layer 3. -/
abbrev H3 (c : Dev nD) : S100000x128.Idx → EReal :=
  layerOf (Ideal.ofBits .f32 0x3F365A78#32) (Ideal.ofBits .f32 0x3E934B11#32) (H2 m c) (X0 m c) (m ((c : Thread nD τ).loc main_arg1)) (m ((c : Thread nD τ).loc main_arg2)) (m ((c : Thread nD τ).loc main_arg11)) (m ((c : Thread nD τ).loc main_arg12)) (m ((c : Thread nD τ).loc main_arg13))

/-! ## The carried buffers where each reader finds them -/

theorem src_at6 (c : Dev nD) : W6 m ρ c (Proc.devRef .tc main_arg1) = (m ((c : Thread nD τ).loc main_arg1)) := (Carry.keep_arg1_0_6 m ρ c).trans rfl
theorem src_at8 (c : Dev nD) : W8 m ρ c (Proc.devRef .tc main_arg1) = (m ((c : Thread nD τ).loc main_arg1)) := (Carry.keep_arg1_6_8 m ρ c).trans (src_at6 m ρ c)
theorem src_at10 (c : Dev nD) : W10 m ρ c (Proc.devRef .tc main_arg1) = (m ((c : Thread nD τ).loc main_arg1)) := (Carry.keep_arg1_8_10 m ρ c).trans (src_at8 m ρ c)
theorem dst_at6 (c : Dev nD) : W6 m ρ c (Proc.devRef .tc main_arg2) = (m ((c : Thread nD τ).loc main_arg2)) := (Carry.keep_arg2_0_6 m ρ c).trans rfl
theorem dst_at8 (c : Dev nD) : W8 m ρ c (Proc.devRef .tc main_arg2) = (m ((c : Thread nD τ).loc main_arg2)) := (Carry.keep_arg2_6_8 m ρ c).trans (dst_at6 m ρ c)
theorem dst_at10 (c : Dev nD) : W10 m ρ c (Proc.devRef .tc main_arg2) = (m ((c : Thread nD τ).loc main_arg2)) := (Carry.keep_arg2_8_10 m ρ c).trans (dst_at8 m ρ c)
theorem nsrc_at6 (c : Dev nD) : W6 m ρ c (Proc.devRef .tc main_v11) = degScale (m ((c : Thread nD τ).loc main_arg1)) := (Carry.keep_v11_5_6 m ρ c).trans (HostEntry.nsrc5 m ρ c)
theorem nsrc_at8 (c : Dev nD) : W8 m ρ c (Proc.devRef .tc main_v11) = degScale (m ((c : Thread nD τ).loc main_arg1)) := (Carry.keep_v11_6_8 m ρ c).trans (nsrc_at6 m ρ c)
theorem nsrc_at10 (c : Dev nD) : W10 m ρ c (Proc.devRef .tc main_v11) = degScale (m ((c : Thread nD τ).loc main_arg1)) := (Carry.keep_v11_8_10 m ρ c).trans (nsrc_at8 m ρ c)
theorem ndst_at6 (c : Dev nD) : W6 m ρ c (Proc.devRef .tc main_v14) = degScale (m ((c : Thread nD τ).loc main_arg2)) := (Carry.keep_v14_5_6 m ρ c).trans (HostEntry.ndst5 m ρ c)
theorem ndst_at8 (c : Dev nD) : W8 m ρ c (Proc.devRef .tc main_v14) = degScale (m ((c : Thread nD τ).loc main_arg2)) := (Carry.keep_v14_6_8 m ρ c).trans (ndst_at6 m ρ c)
theorem ndst_at10 (c : Dev nD) : W10 m ρ c (Proc.devRef .tc main_v14) = degScale (m ((c : Thread nD τ).loc main_arg2)) := (Carry.keep_v14_8_10 m ρ c).trans (ndst_at8 m ρ c)

/-! ## Region 0: the projected features -/

/-- What region 0 leaves in its output array: every row of X against the transposed input weights. -/
theorem x0_at6 (c : Dev nD) : W6 m ρ c (Proc.devRef .tc main_v17) = X0 m c :=
  (W6_arr m ρ c 2).trans ((InProj.final (V5 m ρ) c).trans (by
    show inProjAt (W5 m ρ c (Proc.devRef .tc main_arg0)) (W5 m ρ c (Proc.devRef .tc main_v15)) = _
    rw [(Carry.keep_arg0_0_5 m ρ c).trans rfl, HostEntry.lin1T5 m ρ c]
    rfl))
theorem x0_at7 (c : Dev nD) : W7 m ρ c (Proc.devRef .tc main_v17) = X0 m c := (Carry.keep_v17_6_7 m ρ c).trans (x0_at6 m ρ c)
theorem x0_at9 (c : Dev nD) : W9 m ρ c (Proc.devRef .tc main_v17) = X0 m c := (Carry.keep_v17_7_9 m ρ c).trans (x0_at7 m ρ c)
theorem x0_at11 (c : Dev nD) : W11 m ρ c (Proc.devRef .tc main_v17) = X0 m c := (Carry.keep_v17_9_11 m ρ c).trans (x0_at9 m ρ c)

/-! ## Layer 1 -/

/-- Region 1 is entered with the neighbourhood sum of the previous hidden state. -/
theorem feat_at7 (c : Dev nD) :
    W7 m ρ c (Proc.devRef .tc main_v33) = spread (X0 m c) (degScale (m ((c : Thread nD τ).loc main_arg1))) (degScale (m ((c : Thread nD τ).loc main_arg2))) (m ((c : Thread nD τ).loc main_arg1)) (m ((c : Thread nD τ).loc main_arg2)) := by
  rw [HostStretch.feat1 m ρ c, x0_at6 m ρ c, nsrc_at6 m ρ c, ndst_at6 m ρ c, src_at6 m ρ c, dst_at6 m ρ c]

/-- … and with the layer's bias as a row. -/
theorem bias_at7 (c : Dev nD) :
    W7 m ρ c (Proc.devRef .tc main_v34) = shapeCast S1x128 (m ((c : Thread nD τ).loc main_arg7)) shapeCasts_S128_S1x128 := by
  rw [HostStretch.bias1 m ρ c, (Carry.keep_arg7_0_6 m ρ c).trans rfl]

/-- What region 1 leaves in its output array: the layer formula of what it was entered with. -/
theorem hidden1 (c : Dev nD) : W8 m ρ c (Proc.devRef .tc main_v35) = H1 m c :=
  (W8_arr m ρ c 5).trans ((Layer1.final (V7 m ρ) c).trans (by
    show layerAt (Ideal.ofBits .f32 0x3E9D1BD0#32) (Ideal.ofBits .f32 0x3F317218#32) (W7 m ρ c (Proc.devRef .tc main_v33)) (W7 m ρ c (Proc.devRef .tc main_v17))
      (W7 m ρ c (Proc.devRef .tc main_arg5)) (W7 m ρ c (Proc.devRef .tc main_arg6)) (W7 m ρ c (Proc.devRef .tc main_v34)) = _
    rw [feat_at7 m ρ c, x0_at7 m ρ c, (Carry.keep_arg5_0_7 m ρ c).trans rfl,
      (Carry.keep_arg6_0_7 m ρ c).trans rfl, bias_at7 m ρ c]
    rfl))

/-! ## Layer 2 -/

/-- Region 2 is entered with the neighbourhood sum of the previous hidden state. -/
theorem feat_at9 (c : Dev nD) :
    W9 m ρ c (Proc.devRef .tc main_v51) = spread (H1 m c) (degScale (m ((c : Thread nD τ).loc main_arg1))) (degScale (m ((c : Thread nD τ).loc main_arg2))) (m ((c : Thread nD τ).loc main_arg1)) (m ((c : Thread nD τ).loc main_arg2)) := by
  rw [HostStretch.feat2 m ρ c, hidden1 m ρ c, nsrc_at8 m ρ c, ndst_at8 m ρ c, src_at8 m ρ c, dst_at8 m ρ c]

/-- … and with the layer's bias as a row. -/
theorem bias_at9 (c : Dev nD) :
    W9 m ρ c (Proc.devRef .tc main_v52) = shapeCast S1x128 (m ((c : Thread nD τ).loc main_arg10)) shapeCasts_S128_S1x128 := by
  rw [HostStretch.bias2 m ρ c, (Carry.keep_arg10_0_8 m ρ c).trans rfl]

/-- What region 2 leaves in its output array: the layer formula of what it was entered with. -/
theorem hidden2 (c : Dev nD) : W10 m ρ c (Proc.devRef .tc main_v53) = H2 m c :=
  (W10_arr m ρ c 5).trans ((Layer2.final (V9 m ρ) c).trans (by
    show layerAt (Ideal.ofBits .f32 0x3F183370#32) (Ideal.ofBits .f32 0x3ECF991F#32) (W9 m ρ c (Proc.devRef .tc main_v51)) (W9 m ρ c (Proc.devRef .tc main_v17))
      (W9 m ρ c (Proc.devRef .tc main_arg8)) (W9 m ρ c (Proc.devRef .tc main_arg9)) (W9 m ρ c (Proc.devRef .tc main_v52)) = _
    rw [feat_at9 m ρ c, x0_at9 m ρ c, (Carry.keep_arg8_0_9 m ρ c).trans rfl,
      (Carry.keep_arg9_0_9 m ρ c).trans rfl, bias_at9 m ρ c]
    rfl))

/-! ## Layer 3 -/

/-- Region 3 is entered with the neighbourhood sum of the previous hidden state. -/
theorem feat_at11 (c : Dev nD) :
    W11 m ρ c (Proc.devRef .tc main_v69) = spread (H2 m c) (degScale (m ((c : Thread nD τ).loc main_arg1))) (degScale (m ((c : Thread nD τ).loc main_arg2))) (m ((c : Thread nD τ).loc main_arg1)) (m ((c : Thread nD τ).loc main_arg2)) := by
  rw [HostStretch.feat3 m ρ c, hidden2 m ρ c, nsrc_at10 m ρ c, ndst_at10 m ρ c, src_at10 m ρ c, dst_at10 m ρ c]

/-- … and with the layer's bias as a row. -/
theorem bias_at11 (c : Dev nD) :
    W11 m ρ c (Proc.devRef .tc main_v70) = shapeCast S1x128 (m ((c : Thread nD τ).loc main_arg13)) shapeCasts_S128_S1x128 := by
  rw [HostStretch.bias3 m ρ c, (Carry.keep_arg13_0_10 m ρ c).trans rfl]

/-- What region 3 leaves in its output array: the layer formula of what it was entered with. -/
theorem hidden3 (c : Dev nD) : W12 m ρ c (Proc.devRef .tc main_v71) = H3 m c :=
  (W12_arr m ρ c 5).trans ((Layer3.final (V11 m ρ) c).trans (by
    show layerAt (Ideal.ofBits .f32 0x3F365A78#32) (Ideal.ofBits .f32 0x3E934B11#32) (W11 m ρ c (Proc.devRef .tc main_v69)) (W11 m ρ c (Proc.devRef .tc main_v17))
      (W11 m ρ c (Proc.devRef .tc main_arg11)) (W11 m ρ c (Proc.devRef .tc main_arg12)) (W11 m ρ c (Proc.devRef .tc main_v70)) = _
    rw [feat_at11 m ρ c, x0_at11 m ρ c, (Carry.keep_arg11_0_11 m ρ c).trans rfl,
      (Carry.keep_arg12_0_11 m ρ c).trans rfl, bias_at11 m ρ c]
    rfl))

/-! ## Region 4: the result -/

/-- The result array after the run is the specification of the launch arguments. -/
theorem result_at13 (c : Dev nD) :
    W13 m ρ c (Proc.devRef .tc main_v72) = Whole.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W13_arr m ρ c 2).trans ((OutProj.final (V12 m ρ) c).trans (by
    show outProjAt (W12 m ρ c (Proc.devRef .tc main_v71)) (W12 m ρ c (Proc.devRef .tc main_v16)) = _
    rw [hidden3 m ρ c, (Carry.keep_v16_5_12 m ρ c).trans (HostEntry.lin2T5 m ρ c)]
    rfl))

end Cert.KernelIdeal.KernelWhole

end
-- ==== Proof.RefStages.lean ====
/-
  The reference's dense stages, entry by entry.

  The reference computes on whole arrays: x0 = X · L1ᵀ by one contraction over the 256 input features; each layer by two
  contractions over the 128 hidden features and a handful of entrywise products and sums; the result by one contraction
  over the 128 hidden features. Read at an entry (r, j) each contraction is a finite sum over k of a row entry times a
  column entry, and the entrywise operations are the extended reals' own + and ·. These lemmas say exactly that, in
  the shared formulas of Formula.lean; the stages themselves and their readings at an index are the generated ones.
  The neighbourhood sum (gather, scatter-add, scalings) is left as the named stage it is: both programs apply the same
  host operations there, so it is never opened.
-/
import proofs.«121407_j23794118820012_1_alg».proof.Proof.Gen.ReferenceIdeal.Read
import proofs.«121407_j23794118820012_1_alg».proof.Proof.Formula

noncomputable section

namespace Cert.RefStages

open Cert.ReferenceIdeal Cert.ReferenceIdeal.Read Cert.KernelIdeal.Formula
open Idealize.ShloMosaic Idealize.ShloMosaic.ValueIdx

/-- The projected features: entry (r, j) of `X · L1ᵀ` is the sum over the 256 input features. -/
theorem inProj_eq (x0 : (⟨S100000x256, .f32⟩ : BufTy).Contents (Elt Ideal)) (x3 : (⟨S128x256, .f32⟩ : BufTy).Contents (Elt Ideal)) :
    (val_main_v16 (F := Ideal) x0 x3 : S100000x128.Idx → EReal) = inProjAt x0 (val_main_v15 (F := Ideal) x3) := by
  funext i
  rw [val_main_v16_apply]
  unfold inProjAt
  refine Finset.sum_congr rfl fun k _ => ?_
  have eL : lidx_main_v16 i k = ix2 (n0 := 100000) (n1 := 256) (i 0) k := funext fun a => by
    match a with | ⟨0, _⟩ => rfl | ⟨1, _⟩ => rfl
  have eR : ridx_main_v16 i k = ix2 (n0 := 256) (n1 := 128) k (i 1) := funext fun a => by
    match a with | ⟨0, _⟩ => rfl | ⟨1, _⟩ => rfl
  rw [eL, eR]

/-- Layer 1 of the reference, entry by entry: its seventeen dense operations after the neighbourhood sum are the
    layer formula of the neighbourhood sum `feat`, the projected features `x0`, the two weight matrices and the bias row. -/
theorem layer1_eq (x0 : (⟨S100000x256, .f32⟩ : BufTy).Contents (Elt Ideal)) (x1 : (⟨S600000, .i32⟩ : BufTy).Contents (Elt Ideal)) (x2 : (⟨S600000, .i32⟩ : BufTy).Contents (Elt Ideal)) (x3 : (⟨S128x256, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    (val_main_v50 (F := Ideal) x0 x1 x2 x3 x5 x6 x7 : S100000x128.Idx → EReal)
      = layerAt (Ideal.ofBits .f32 0x3E9D1BD0#32) (Ideal.ofBits .f32 0x3F317218#32) (val_main_v32 (F := Ideal) x0 x1 x2 x3) (val_main_v16 (F := Ideal) x0 x3) x5 x6 (val_main_v48 (F := Ideal) x7) := by
  funext i
  have eL1 : ∀ k : Fin 128, lidx_main_v37 i k = ix2 (n0 := 100000) (n1 := 128) (i 0) k := fun k => funext fun a => by
    match a with | ⟨0, _⟩ => rfl | ⟨1, _⟩ => rfl
  have eR1 : ∀ k : Fin 128, ridx_main_v37 i k = ix2 (n0 := 128) (n1 := 128) k (i 1) := fun k => funext fun a => by
    match a with | ⟨0, _⟩ => rfl | ⟨1, _⟩ => rfl
  have eL2 : ∀ k : Fin 128, lidx_main_v44 i k = ix2 (n0 := 100000) (n1 := 128) (i 0) k := fun k => funext fun a => by
    match a with | ⟨0, _⟩ => rfl | ⟨1, _⟩ => rfl
  have eR2 : ∀ k : Fin 128, ridx_main_v44 i k = ix2 (n0 := 128) (n1 := 128) k (i 1) := fun k => funext fun a => by
    match a with | ⟨0, _⟩ => rfl | ⟨1, _⟩ => rfl
  have eB : idx_main_v49 i = ix2 (n0 := 1) (n1 := 128) 0 (i 1) := funext fun a => by
    match a with | ⟨0, _⟩ => rfl | ⟨1, _⟩ => rfl
  simp only [val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v49_apply, val_main_v50_apply,
    val_main_cst_apply, val_main_cst_0_apply, val_main_cst_1_apply, val_main_cst_2_apply, val_main_cst_3_apply, val_main_cst_4_apply, val_main_cst_5_apply, val_main_cst_7_apply, val_main_cst_8_apply, val_main_cst_9_apply, val_main_cst_10_apply, val_main_cst_11_apply, val_main_cst_12_apply, val_main_cst_13_apply, val_main_cst_16_apply, val_main_cst_17_apply, val_main_cst_18_apply, val_main_cst_19_apply, val_main_cst_20_apply, val_main_cst_21_apply, val_main_cst_22_apply, val_main_cst_25_apply, val_main_cst_26_apply, val_main_cst_27_apply, val_main_cst_28_apply, val_main_cst_29_apply, val_main_cst_30_apply, val_main_cst_31_apply,
    eL1, eR1, eL2, eR2, eB, Ideal.addf_def, Ideal.mulf_def, Ideal.ofBits_def]
  rfl

/-- Layer 2 of the reference, entry by entry: its seventeen dense operations after the neighbourhood sum are the
    layer formula of the neighbourhood sum `feat`, the projected features `x0`, the two weight matrices and the bias row. -/
theorem layer2_eq (x0 : (⟨S100000x256, .f32⟩ : BufTy).Contents (Elt Ideal)) (x1 : (⟨S600000, .i32⟩ : BufTy).Contents (Elt Ideal)) (x2 : (⟨S600000, .i32⟩ : BufTy).Contents (Elt Ideal)) (x3 : (⟨S128x256, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) :
    (val_main_v84 (F := Ideal) x0 x1 x2 x3 x5 x6 x7 x8 x9 x10 : S100000x128.Idx → EReal)
      = layerAt (Ideal.ofBits .f32 0x3F183370#32) (Ideal.ofBits .f32 0x3ECF991F#32) (val_main_v66 (F := Ideal) x0 x1 x2 x3 x5 x6 x7) (val_main_v16 (F := Ideal) x0 x3) x8 x9 (val_main_v82 (F := Ideal) x10) := by
  funext i
  have eL1 : ∀ k : Fin 128, lidx_main_v71 i k = ix2 (n0 := 100000) (n1 := 128) (i 0) k := fun k => funext fun a => by
    match a with | ⟨0, _⟩ => rfl | ⟨1, _⟩ => rfl
  have eR1 : ∀ k : Fin 128, ridx_main_v71 i k = ix2 (n0 := 128) (n1 := 128) k (i 1) := fun k => funext fun a => by
    match a with | ⟨0, _⟩ => rfl | ⟨1, _⟩ => rfl
  have eL2 : ∀ k : Fin 128, lidx_main_v78 i k = ix2 (n0 := 100000) (n1 := 128) (i 0) k := fun k => funext fun a => by
    match a with | ⟨0, _⟩ => rfl | ⟨1, _⟩ => rfl
  have eR2 : ∀ k : Fin 128, ridx_main_v78 i k = ix2 (n0 := 128) (n1 := 128) k (i 1) := fun k => funext fun a => by
    match a with | ⟨0, _⟩ => rfl | ⟨1, _⟩ => rfl
  have eB : idx_main_v83 i = ix2 (n0 := 1) (n1 := 128) 0 (i 1) := funext fun a => by
    match a with | ⟨0, _⟩ => rfl | ⟨1, _⟩ => rfl
  simp only [val_main_v67_apply, val_main_v68_apply, val_main_v69_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v83_apply, val_main_v84_apply,
    val_main_cst_apply, val_main_cst_0_apply, val_main_cst_1_apply, val_main_cst_2_apply, val_main_cst_3_apply, val_main_cst_4_apply, val_main_cst_5_apply, val_main_cst_7_apply, val_main_cst_8_apply, val_main_cst_9_apply, val_main_cst_10_apply, val_main_cst_11_apply, val_main_cst_12_apply, val_main_cst_13_apply, val_main_cst_16_apply, val_main_cst_17_apply, val_main_cst_18_apply, val_main_cst_19_apply, val_main_cst_20_apply, val_main_cst_21_apply, val_main_cst_22_apply, val_main_cst_25_apply, val_main_cst_26_apply, val_main_cst_27_apply, val_main_cst_28_apply, val_main_cst_29_apply, val_main_cst_30_apply, val_main_cst_31_apply,
    eL1, eR1, eL2, eR2, eB, Ideal.addf_def, Ideal.mulf_def, Ideal.ofBits_def]
  rfl

/-- Layer 3 of the reference, entry by entry: its seventeen dense operations after the neighbourhood sum are the
    layer formula of the neighbourhood sum `feat`, the projected features `x0`, the two weight matrices and the bias row. -/
theorem layer3_eq (x0 : (⟨S100000x256, .f32⟩ : BufTy).Contents (Elt Ideal)) (x1 : (⟨S600000, .i32⟩ : BufTy).Contents (Elt Ideal)) (x2 : (⟨S600000, .i32⟩ : BufTy).Contents (Elt Ideal)) (x3 : (⟨S128x256, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) :
    (val_main_v118 (F := Ideal) x0 x1 x2 x3 x5 x6 x7 x8 x9 x10 x11 x12 x13 : S100000x128.Idx → EReal)
      = layerAt (Ideal.ofBits .f32 0x3F365A78#32) (Ideal.ofBits .f32 0x3E934B11#32) (val_main_v100 (F := Ideal) x0 x1 x2 x3 x5 x6 x7 x8 x9 x10) (val_main_v16 (F := Ideal) x0 x3) x11 x12 (val_main_v116 (F := Ideal) x13) := by
  funext i
  have eL1 : ∀ k : Fin 128, lidx_main_v105 i k = ix2 (n0 := 100000) (n1 := 128) (i 0) k := fun k => funext fun a => by
    match a with | ⟨0, _⟩ => rfl | ⟨1, _⟩ => rfl
  have eR1 : ∀ k : Fin 128, ridx_main_v105 i k = ix2 (n0 := 128) (n1 := 128) k (i 1) := fun k => funext fun a => by
    match a with | ⟨0, _⟩ => rfl | ⟨1, _⟩ => rfl
  have eL2 : ∀ k : Fin 128, lidx_main_v112 i k = ix2 (n0 := 100000) (n1 := 128) (i 0) k := fun k => funext fun a => by
    match a with | ⟨0, _⟩ => rfl | ⟨1, _⟩ => rfl
  have eR2 : ∀ k : Fin 128, ridx_main_v112 i k = ix2 (n0 := 128) (n1 := 128) k (i 1) := fun k => funext fun a => by
    match a with | ⟨0, _⟩ => rfl | ⟨1, _⟩ => rfl
  have eB : idx_main_v117 i = ix2 (n0 := 1) (n1 := 128) 0 (i 1) := funext fun a => by
    match a with | ⟨0, _⟩ => rfl | ⟨1, _⟩ => rfl
  simp only [val_main_v101_apply, val_main_v102_apply, val_main_v103_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v117_apply, val_main_v118_apply,
    val_main_cst_apply, val_main_cst_0_apply, val_main_cst_1_apply, val_main_cst_2_apply, val_main_cst_3_apply, val_main_cst_4_apply, val_main_cst_5_apply, val_main_cst_7_apply, val_main_cst_8_apply, val_main_cst_9_apply, val_main_cst_10_apply, val_main_cst_11_apply, val_main_cst_12_apply, val_main_cst_13_apply, val_main_cst_16_apply, val_main_cst_17_apply, val_main_cst_18_apply, val_main_cst_19_apply, val_main_cst_20_apply, val_main_cst_21_apply, val_main_cst_22_apply, val_main_cst_25_apply, val_main_cst_26_apply, val_main_cst_27_apply, val_main_cst_28_apply, val_main_cst_29_apply, val_main_cst_30_apply, val_main_cst_31_apply,
    eL1, eR1, eL2, eR2, eB, Ideal.addf_def, Ideal.mulf_def, Ideal.ofBits_def]
  rfl

/-- The result: entry (r, j) of `h · L2ᵀ` is the sum over the 128 hidden features. -/
theorem outProj_eq (x0 : (⟨S100000x256, .f32⟩ : BufTy).Contents (Elt Ideal)) (x1 : (⟨S600000, .i32⟩ : BufTy).Contents (Elt Ideal)) (x2 : (⟨S600000, .i32⟩ : BufTy).Contents (Elt Ideal)) (x3 : (⟨S128x256, .f32⟩ : BufTy).Contents (Elt Ideal)) (x4 : (⟨S47x128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) :
    (val_main_v120 (F := Ideal) x0 x1 x2 x3 x4 x5 x6 x7 x8 x9 x10 x11 x12 x13 : S100000x47.Idx → EReal) = outProjAt (val_main_v118 (F := Ideal) x0 x1 x2 x3 x5 x6 x7 x8 x9 x10 x11 x12 x13) (val_main_v119 (F := Ideal) x4) := by
  funext i
  rw [val_main_v120_apply]
  unfold outProjAt
  refine Finset.sum_congr rfl fun k _ => ?_
  have eL : lidx_main_v120 i k = ix2 (n0 := 100000) (n1 := 128) (i 0) k := funext fun a => by
    match a with | ⟨0, _⟩ => rfl | ⟨1, _⟩ => rfl
  have eR : ridx_main_v120 i k = ix2 (n0 := 128) (n1 := 47) k (i 1) := funext fun a => by
    match a with | ⟨0, _⟩ => rfl | ⟨1, _⟩ => rfl
  rw [eL, eR]

end Cert.RefStages

end
-- ==== Proof.RefShared.lean ====
/-
  The reference's host stages are the two shared host computations.

  The reference program builds, operation by operation, the d^(-1/2) columns of the edge sources and of the edge
  targets, and, once per layer, the degree-normalised neighbourhood sum of the current node features (scale the rows by
  the source column, gather along the sources with negative indices wrapped by 100000, scatter-add along the targets,
  scale the rows by the target column, multiply by 0.9). Each of these chains of stages is, operation for operation
  and literal for literal, `Shared.degScale` resp. `Shared.spread` of the same arguments: the two sides are the same
  tree of operations, so each equation holds by unfolding the names of the stages.

  Likewise the two weight matrices enter transposed, and each bias vector [128] enters as the row [1, 128] whose entry
  (0, j) is entry j of the vector — whether the row is made by a reshape or by a broadcast along a new unit axis.
-/
import proofs.«121407_j23794118820012_1_alg».proof.Proof.Gen.ReferenceIdeal.Read
import proofs.«121407_j23794118820012_1_alg».proof.Proof.Shared
import Idealize.ShloMosaic.Lib.Pipeline.Value
import Idealize.ShloMosaic.PureOps.Ideal

noncomputable section

namespace Cert.RefShared

open Cert.ReferenceIdeal Cert.ReferenceIdeal.Read Idealize.ShloMosaic

/-! ## The degree columns -/

/-- The reference's source-degree column is `degScale` of the edge sources. -/
theorem nsrc_eq (x1 : (⟨S600000, .i32⟩ : BufTy).Contents (Elt Ideal)) :
    val_main_v11 (F := Ideal) x1 = Cert.KernelIdeal.Shared.degScale x1 := by
  unfold val_main_v11 val_main_v10 val_main_v9 val_main_cst_4 val_main_v4 val_main_call0_v1 val_main_call0_v0
    val_main_cst_1 val_main_v3 val_main_v2 val_main_v1 val_main_cst_0 val_main_v0 val_main_cst
    Cert.KernelIdeal.Shared.degScale
  rfl

/-- The reference's target-degree column is `degScale` of the edge targets. -/
theorem ndst_eq (x2 : (⟨S600000, .i32⟩ : BufTy).Contents (Elt Ideal)) :
    val_main_v14 (F := Ideal) x2 = Cert.KernelIdeal.Shared.degScale x2 := by
  unfold val_main_v14 val_main_v13 val_main_v12 val_main_cst_5 val_main_v8 val_main_call1_v1 val_main_call1_v0
    val_main_cst_3 val_main_v7 val_main_v6 val_main_v5 val_main_cst_2 val_main_v0 val_main_cst
    Cert.KernelIdeal.Shared.degScale
  rfl

/-! ## The neighbourhood sums, one per layer -/

/-- Layer 1 spreads the input projection. -/
theorem spread1_eq (x0 : (⟨S100000x256, .f32⟩ : BufTy).Contents (Elt Ideal)) (x1 x2 : (⟨S600000, .i32⟩ : BufTy).Contents (Elt Ideal)) (x3 : (⟨S128x256, .f32⟩ : BufTy).Contents (Elt Ideal)) :
    val_main_v32 (F := Ideal) x0 x1 x2 x3
      = Cert.KernelIdeal.Shared.spread (val_main_v16 (F := Ideal) x0 x3) (val_main_v11 (F := Ideal) x1)
          (val_main_v14 (F := Ideal) x2) x1 x2 := by
  unfold val_main_v32 val_main_v31 val_main_cst_8 val_main_v30 val_main_v29 val_main_v28 val_main_v27 val_main_v26
    val_main_cst_7 val_main_v25 val_main_v24 val_main_v23 val_main_v22 val_main_v21 val_main_c_6 val_main_v20
    val_main_v19 val_main_c val_main_v18 val_main_v17 Cert.KernelIdeal.Shared.spread
  rfl

/-- Layer 2 spreads the first layer's output. -/
theorem spread2_eq (x0 : (⟨S100000x256, .f32⟩ : BufTy).Contents (Elt Ideal)) (x1 x2 : (⟨S600000, .i32⟩ : BufTy).Contents (Elt Ideal)) (x3 : (⟨S128x256, .f32⟩ : BufTy).Contents (Elt Ideal)) (x5 x6 : (⟨S128x128, .f32⟩ : BufTy).Contents (Elt Ideal)) (x7 : (⟨S128, .f32⟩ : BufTy).Contents (Elt Ideal)) :
    val_main_v66 (F := Ideal) x0 x1 x2 x3 x5 x6 x7
      = Cert.KernelIdeal.Shared.spread (val_main_v50 (F := Ideal) x0 x1 x2 x3 x5 x6 x7) (val_main_v11 (F := Ideal) x1)
          (val_main_v14 (F := Ideal) x2) x1 x2 := by
  unfold val_main_v66 val_main_v65 val_main_cst_17 val_main_v64 val_main_v63 val_main_v62 val_main_v61 val_main_v60
    val_main_cst_16 val_main_v59 val_main_v58 val_main_v57 val_main_v56 val_main_v55 val_main_c_15 val_main_v54
    val_main_v53 val_main_c_14 val_main_v52 val_main_v51 Cert.KernelIdeal.Shared.spread
  rfl

/-- Layer 3 spreads the second layer's output. -/
theorem spread3_eq (x0 : (⟨S100000x256, .f32⟩ : BufTy).Contents (Elt Ideal)) (x1 x2 : (⟨S600000, .i32⟩ : BufTy).Contents (Elt Ideal)) (x3 : (⟨S128x256, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    val_main_v100 (F := Ideal) x0 x1 x2 x3 x5 x6 x7 x8 x9 x10
      = Cert.KernelIdeal.Shared.spread (val_main_v84 (F := Ideal) x0 x1 x2 x3 x5 x6 x7 x8 x9 x10)
          (val_main_v11 (F := Ideal) x1) (val_main_v14 (F := Ideal) x2) x1 x2 := by
  unfold val_main_v100 val_main_v99 val_main_cst_26 val_main_v98 val_main_v97 val_main_v96 val_main_v95 val_main_v94
    val_main_cst_25 val_main_v93 val_main_v92 val_main_v91 val_main_v90 val_main_v89 val_main_c_24 val_main_v88
    val_main_v87 val_main_c_23 val_main_v86 val_main_v85 Cert.KernelIdeal.Shared.spread
  rfl

/-! ## The transposed weights -/

/-- The first projection's weights enter transposed. -/
theorem lin1T_eq (x3 : (⟨S128x256, .f32⟩ : BufTy).Contents (Elt Ideal)) :
    val_main_v15 (F := Ideal) x3
      = transpose Cert.KernelIdeal.S256x128 [1, 0] x3 Cert.KernelIdeal.Gen.transposes_S128x256_S256x128_1_0 := by
  unfold val_main_v15
  rfl

/-- The last projection's weights enter transposed. -/
theorem lin2T_eq (x4 : (⟨S47x128, .f32⟩ : BufTy).Contents (Elt Ideal)) :
    val_main_v119 (F := Ideal) x4
      = transpose Cert.KernelIdeal.S128x47 [1, 0] x4 Cert.KernelIdeal.Gen.transposes_S47x128_S128x47_1_0 := by
  unfold val_main_v119
  rfl

/-! ## The bias rows -/

/-- A vector [128] reshaped to a row [1, 128] has the vector's entry j at (0, j) — and so has the vector broadcast
    along a new leading unit axis. -/
theorem row_eq (v : (⟨S128, .f32⟩ : BufTy).Contents (Elt Ideal)) (j : S1x128.Idx) :
    shapeCast Cert.KernelIdeal.S1x128 v Cert.KernelIdeal.Gen.shapeCasts_S128_S1x128 j
      = v (fun a => match a with | ⟨0, _⟩ => ⟨(j 1).val, (j 1).isLt⟩) := by
  refine (shapeCast_addUnit_apply (n := 1) ![128] v Cert.KernelIdeal.Gen.shapeCasts_S128_S1x128 j).trans ?_
  exact congrArg v (funext fun a => by match a with | ⟨0, _⟩ => rfl)

/-- The first layer's bias row. -/
theorem bias1_eq (x7 : (⟨S128, .f32⟩ : BufTy).Contents (Elt Ideal)) :
    shapeCast Cert.KernelIdeal.S1x128 x7 Cert.KernelIdeal.Gen.shapeCasts_S128_S1x128 = val_main_v48 (F := Ideal) x7 := by
  funext j
  rw [val_main_v48_apply]
  exact row_eq x7 j

/-- The second layer's bias row. -/
theorem bias2_eq (x10 : (⟨S128, .f32⟩ : BufTy).Contents (Elt Ideal)) :
    shapeCast Cert.KernelIdeal.S1x128 x10 Cert.KernelIdeal.Gen.shapeCasts_S128_S1x128 = val_main_v82 (F := Ideal) x10 := by
  funext j
  rw [val_main_v82_apply]
  exact row_eq x10 j

/-- The third layer's bias row. -/
theorem bias3_eq (x13 : (⟨S128, .f32⟩ : BufTy).Contents (Elt Ideal)) :
    shapeCast Cert.KernelIdeal.S1x128 x13 Cert.KernelIdeal.Gen.shapeCasts_S128_S1x128 = val_main_v116 (F := Ideal) x13 := by
  funext j
  rw [val_main_v116_apply]
  exact row_eq x13 j

end Cert.RefShared

end
-- ==== Proof.RefWhole.lean ====
/-
  The reference's result is the whole computation.

  Reading the reference from its last operation back to its arguments: the result is the output projection of the third
  layer's output against the transposed second weight matrix; each layer's output is the layer formula of the
  neighbourhood sum of the previous layer's output (for the first layer: of the projected features), of the projected
  features, of the layer's two weight matrices and of its bias row; each neighbourhood sum is `spread` with the two
  degree columns `degScale src`, `degScale dst`; the projected features are the input projection of the features against
  the transposed first weight matrix; and each bias row is the bias vector viewed as a [1, 128] row. Substituting these
  equations one after the other, from the result down to the fourteen arguments, leaves exactly `Whole.result`.
-/
import proofs.«121407_j23794118820012_1_alg».proof.Proof.RefStages
import proofs.«121407_j23794118820012_1_alg».proof.Proof.RefShared
import proofs.«121407_j23794118820012_1_alg».proof.Proof.Whole

noncomputable section

namespace Cert.RefWhole

open Cert.ReferenceIdeal Cert.ReferenceIdeal.Read Idealize.ShloMosaic
open Cert.RefStages Cert.RefShared

/-- The reference's result array, as a function of its fourteen arguments, is `Whole.result` of them. -/
theorem result_eq (x0 : (⟨S100000x256, .f32⟩ : BufTy).Contents (Elt Ideal)) (x1 x2 : (⟨S600000, .i32⟩ : BufTy).Contents (Elt Ideal))
    (x3 : (⟨S128x256, .f32⟩ : BufTy).Contents (Elt Ideal)) (x4 : (⟨S47x128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 x12 : (⟨S128x128, .f32⟩ : BufTy).Contents (Elt Ideal)) (x13 : (⟨S128, .f32⟩ : BufTy).Contents (Elt Ideal)) :
    (val_main_v120 (F := Ideal) x0 x1 x2 x3 x4 x5 x6 x7 x8 x9 x10 x11 x12 x13 : Cert.KernelIdeal.S100000x47.Idx → EReal)
      = Cert.KernelIdeal.Whole.result x0 x1 x2 x3 x4 x5 x6 x7 x8 x9 x10 x11 x12 x13 := by
  unfold Cert.KernelIdeal.Whole.result Cert.KernelIdeal.Whole.layerOf Cert.KernelIdeal.Whole.x0Of
  rw [outProj_eq, layer3_eq, spread3_eq, layer2_eq, spread2_eq, layer1_eq, spread1_eq, inProj_eq, lin1T_eq, lin2T_eq,
    nsrc_eq, ndst_eq, ← bias1_eq, ← bias2_eq, ← bias3_eq]

end Cert.RefWhole

end
-- ==== Proof.lean ====
/-
  The certificate of a three-layer graph network (initial-residual layers on a degree-normalised neighbourhood sum) whose
  dense parts run as five pallas_call regions, against its whole-array reference: equal results over the extended reals.

  Both programs compute, from node features X : [100000, 256], an edge list (src, dst) of 600000 edges, two projection
  matrices and three layers of two [128, 128] weight matrices and a bias,
      x0 = X · L1ᵀ,   h_l = layer_l (spread h_(l-1)) x0  (h_0 = x0, l = 1, 2, 3),   out = h_3 · L2ᵀ,
  with layer (feat, x0) = (((a·feat + b·(feat·W1)) + a·f0) + b·(f0·W2)) + bias, f0 = 0.1 · x0, and `spread` the neighbourhood
  sum scaled by out-degree^(-1/2) at the source and in-degree^(-1/2) at the target, times 0.9.
  The kernel program does the irregular part — the degree counts, the gather along src and the scatter-add along dst — by
  the same host operations as the reference, and the dense part region by region, 4000 rows of the 100000 at a time, each
  row block against whole weight matrices. Over the extended reals a change of float format is the identity and a matrix
  product into a zero accumulator is the plain sum over the contracted index, so each region's output array is, entry by
  entry, the same finite sum the reference's whole-array operation is: the blocks are restrictions of one function of the
  arrays, and they tile the rows. Every sum runs over the same index set on both sides and the literals (0.1, 0.9, and the
  two rounded words 1 − β_l, β_l of each layer) are the same words, so no algebraic law is needed and the inputs'
  finiteness is never used.

  The pieces: Formula (the entrywise formulas), Shared (the host computations both programs share, named once), Whole (the
  whole computation as one function of the fourteen arguments); the five region modules (what each region leaves in its
  output array, for any contents it is entered with); Carry, HostEntry, HostStretch, KernelWhole (the kernel program's run
  read back boundary by boundary to `Whole.result` of the launch arguments); RefStages, RefShared, RefWhole (the reference's
  stages read back to the same function); RunNamed (the kernel program's run with the result array named). The frames of the
  two kernel programs and the reference's run are the generated ones; the kernel's idealization rewrote nothing, so
  `preserves` has nothing to state.
-/
import proofs.«121407_j23794118820012_1_alg».proof.Defs
import proofs.«121407_j23794118820012_1_alg».proof.Proof.Gen.Kernel
import proofs.«121407_j23794118820012_1_alg».proof.Proof.Gen.Kernel.Frame
import proofs.«121407_j23794118820012_1_alg».proof.Proof.Gen.KernelIdeal
import proofs.«121407_j23794118820012_1_alg».proof.Proof.Gen.KernelIdeal.Frame
import proofs.«121407_j23794118820012_1_alg».proof.Proof.Gen.ReferenceIdeal
import proofs.«121407_j23794118820012_1_alg».proof.Proof.Gen.ReferenceIdeal.Run
import proofs.«121407_j23794118820012_1_alg».proof.Proof.Gen.ReferenceIdeal.Read
import proofs.«121407_j23794118820012_1_alg».proof.Proof.Gen.Pre_finite_inputs
import proofs.«121407_j23794118820012_1_alg».proof.Proof.RunNamed
import proofs.«121407_j23794118820012_1_alg».proof.Proof.KernelWhole
import proofs.«121407_j23794118820012_1_alg».proof.Proof.RefWhole
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Whole.result` of the arguments:
    the kernel program by its run read back region by region, the reference by its run read back stage by stage. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelWhole.result_at13 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    refine (Cert.ReferenceIdeal.Read.val_main_v120_eq m' c).trans ((Cert.RefWhole.result_eq _ _ _ _ _ _ _ _ _ _ _ _ _ _).trans ?_)
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
